-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4 : Shape := ⟨2, ![16384, 4]⟩
abbrev S2x524288 : Shape := ⟨2, ![2, 524288]⟩
abbrev S4x64 : Shape := ⟨2, ![4, 64]⟩
abbrev S64 : Shape := ⟨1, ![64]⟩
abbrev S64x64 : Shape := ⟨2, ![64, 64]⟩
abbrev S131072x2048 : Shape := ⟨2, ![131072, 2048]⟩
abbrev S2048 : Shape := ⟨1, ![2048]⟩
abbrev S2048x15 : Shape := ⟨2, ![2048, 15]⟩
abbrev S15 : Shape := ⟨1, ![15]⟩
abbrev S_ : Shape := ⟨0, ![]⟩

class Facts : Prop where
  bcast_S_S16384x4 : S_.BroadcastsInDim S16384x4 (![] : Fin 0 → Fin S16384x4.rank)
  reducesTo_S16384x4_S_d0_1 : S16384x4.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S131072x2048 : S_.BroadcastsInDim S131072x2048 (![] : Fin 0 → Fin S131072x2048.rank)
  reducesTo_S131072x2048_S_d0_1 : S131072x2048.ReducesTo [0, 1] S_
  bcast_S_S2048 : S_.BroadcastsInDim S2048 (![] : Fin 0 → Fin S2048.rank)
  reducesTo_S2048_S_d0 : S2048.ReducesTo [0] S_
  bcast_S_S2048x15 : S_.BroadcastsInDim S2048x15 (![] : Fin 0 → Fin S2048x15.rank)
  reducesTo_S2048x15_S_d0_1 : S2048x15.ReducesTo [0, 1] S_
  bcast_S_S15 : S_.BroadcastsInDim S15 (![] : Fin 0 → Fin S15.rank)
  reducesTo_S15_S_d0 : S15.ReducesTo [0] S_

variable [Facts]

def fn_part2 {F : FTy → Type} [FloatOps F] (main_arg8 : FVec F S2048x15 .f32) (main_arg9 : FVec F S15 .f32) (main_v33 : IVec S_ 1) : IVec S_ 1 :=
  let main_v34 : FVec F S2048x15 .f32 := Host.absf main_arg8
  let main_cst_12 : FVec F S_ .f32 := constant S_ .f32 0x7F800000#32
  let main_v35 : FVec F S2048x15 .f32 := broadcastInDim S2048x15 ![] bcast_S_S2048x15 main_cst_12
  let main_v36 : IVec S2048x15 1 := cmpf .olt main_v34 main_v35
  let main_c_13 : IVec S_ 1 := constantI S_ 1 1#1
  let main_v37 : IVec S_ 1 := (fun x v => Host.reduce IntOp.andi x v reducesTo_S2048x15_S_d0_1 h_S_) main_v36 main_c_13
  let main_v38 : IVec S_ 1 := andi main_v33 main_v37
  let main_v39 : FVec F S15 .f32 := Host.absf main_arg9
  let main_cst_14 : FVec F S_ .f32 := constant S_ .f32 0x7F800000#32
  let main_v40 : FVec F S15 .f32 := broadcastInDim S15 ![] bcast_S_S15 main_cst_14
  let main_v41 : IVec S15 1 := cmpf .olt main_v39 main_v40
  let main_c_15 : IVec S_ 1 := constantI S_ 1 1#1
  let main_v42 : IVec S_ 1 := (fun x v => Host.reduce IntOp.andi x v reducesTo_S15_S_d0 h_S_) main_v41 main_c_15
  let main_v43 : IVec S_ 1 := andi main_v38 main_v42
  main_v43

def fn_part1 {F : FTy → Type} [FloatOps F] (main_arg5 : FVec F S64 .f32) (main_arg6 : FVec F S131072x2048 .f32) (main_arg7 : FVec F S2048 .f32) (main_arg8 : FVec F S2048x15 .f32) (main_arg9 : FVec F S15 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S131072x2048 .f32 := Host.absf main_arg6
  let main_cst_8 : FVec F S_ .f32 := constant S_ .f32 0x7F800000#32
  let main_v25 : FVec F S131072x2048 .f32 := broadcastInDim S131072x2048 ![] bcast_S_S131072x2048 main_cst_8
  let main_v26 : IVec S131072x2048 1 := cmpf .olt main_v24 main_v25
  let main_c_9 : IVec S_ 1 := constantI S_ 1 1#1
  let main_v27 : IVec S_ 1 := (fun x v => Host.reduce IntOp.andi x v reducesTo_S131072x2048_S_d0_1 h_S_) main_v26 main_c_9
  let main_v28 : IVec S_ 1 := andi main_v23 main_v27
  let main_v29 : FVec F S2048 .f32 := Host.absf main_arg7
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg8 main_arg9 main_v33

def fn {F : FTy → Type} [FloatOps F] (main_arg0 : FVec F S16384x4 .f32) (main_arg1 : IVec S2x524288 32) (main_arg2 : FVec F S4x64 .f32) (main_arg3 : FVec F S64 .f32) (main_arg4 : FVec F S64x64 .f32) (main_arg5 : FVec F S64 .f32) (main_arg6 : FVec F S131072x2048 .f32) (main_arg7 : FVec F S2048 .f32) (main_arg8 : FVec F S2048x15 .f32) (main_arg9 : FVec F S15 .f32) : IVec S_ 1 :=
  let main_v0 : FVec F S16384x4 .f32 := Host.absf main_arg0
  let main_cst : FVec F S_ .f32 := constant S_ .f32 0x7F800000#32
  let main_v1 : FVec F S16384x4 .f32 := broadcastInDim S16384x4 ![] bcast_S_S16384x4 main_cst
  let main_v2 : IVec S16384x4 1 := cmpf .olt main_v0 main_v1
  let main_c : IVec S_ 1 := constantI S_ 1 1#1
  let main_v3 : IVec S_ 1 := (fun x v => Host.reduce IntOp.andi x v reducesTo_S16384x4_S_d0_1 h_S_) main_v2 main_c
  let main_v4 : FVec F S4x64 .f32 := Host.absf main_arg2
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S16384x4 : Shape := ⟨2, ![16384, 4]⟩
abbrev S2x524288 : Shape := ⟨2, ![2, 524288]⟩
abbrev S4x64 : Shape := ⟨2, ![4, 64]⟩
abbrev S64 : Shape := ⟨1, ![64]⟩
abbrev S64x64 : Shape := ⟨2, ![64, 64]⟩
abbrev S131072x2048 : Shape := ⟨2, ![131072, 2048]⟩
abbrev S2048 : Shape := ⟨1, ![2048]⟩
abbrev S2048x15 : Shape := ⟨2, ![2048, 15]⟩
abbrev S15 : Shape := ⟨1, ![15]⟩
abbrev S1x524288 : Shape := ⟨2, ![1, 524288]⟩
abbrev S524288 : Shape := ⟨1, ![524288]⟩
abbrev S16384x64 : Shape := ⟨2, ![16384, 64]⟩
abbrev S16384 : Shape := ⟨1, ![16384]⟩
abbrev S540672 : Shape := ⟨1, ![540672]⟩
abbrev S_ : Shape := ⟨0, ![]⟩
abbrev S540672x1 : Shape := ⟨2, ![540672, 1]⟩
abbrev S540672x64 : Shape := ⟨2, ![540672, 64]⟩
abbrev S1x64 : Shape := ⟨2, ![1, 64]⟩
abbrev S8x131072 : Shape := ⟨2, ![8, 131072]⟩
abbrev S1x2048 : Shape := ⟨2, ![1, 2048]⟩
abbrev S1x15 : Shape := ⟨2, ![1, 15]⟩
abbrev S8x15 : Shape := ⟨2, ![8, 15]⟩
abbrev S8x1024 : Shape := ⟨2, ![8, 1024]⟩
abbrev S1024x2048 : Shape := ⟨2, ![1024, 2048]⟩
abbrev S8x2048 : Shape := ⟨2, ![8, 2048]⟩

abbrev nBuf : Space → Nat
  | .hbm => 164
  | .vmem => 9
  | .smem => 0
  | _ => 0

abbrev hbmTy0_0 (i : Nat) : BufTy := match i % 128 with
  | 0 => ⟨S16384x4, .f32⟩
  | 1 => ⟨S2x524288, .i32⟩
  | 2 => ⟨S4x64, .f32⟩
  | 3 => ⟨S64, .f32⟩
  | 4 => ⟨S64x64, .f32⟩
  | 5 => ⟨S64, .f32⟩
  | 6 => ⟨S131072x2048, .f32⟩
  | 7 => ⟨S2048, .f32⟩
  | 8 => ⟨S2048x15, .f32⟩
  | 9 => ⟨S15, .f32⟩
  | 10 => ⟨S1x524288, .i32⟩
  | 11 => ⟨S524288, .i32⟩
  | 12 => ⟨S1x524288, .i32⟩
  | 13 => ⟨S524288, .i32⟩
  | 14 => ⟨S16384x64, .f32⟩
  | 15 => ⟨S16384, .i32⟩
  | 16 => ⟨S540672, .i32⟩
  | 17 => ⟨S540672, .i32⟩
  | 18 => ⟨S_, .f32⟩
  | 19 => ⟨S540672, .f32⟩
  | 20 => ⟨S_, .f32⟩
  | 21 => ⟨S16384, .f32⟩
  | 22 => ⟨S540672x1, .i32⟩
  | 23 => ⟨S16384, .f32⟩
  | 24 => ⟨S_, .f32⟩
  | 25 => ⟨S16384, .f32⟩
  | 26 => ⟨S16384, .i1⟩
  | 27 => ⟨S_, .f32⟩
  | 28 => ⟨S16384, .f32⟩
  | 29 => ⟨S16384, .f32⟩
  | 30 => ⟨S16384, .f32⟩
  | 31 => ⟨S_, .f32⟩
  | 32 => ⟨S_, .f32⟩
  | 33 => ⟨S16384, .f32⟩
  | 34 => ⟨S16384, .f32⟩
  | 35 => ⟨S_, .i32⟩
  | 36 => ⟨S540672, .i32⟩
  | 37 => ⟨S540672, .i1⟩
  | 38 => ⟨S_, .i32⟩
  | 39 => ⟨S540672, .i32⟩
  | 40 => ⟨S540672, .i32⟩
  | 41 => ⟨S540672, .i32⟩
  | 42 => ⟨S540672x1, .i32⟩
  | 43 => ⟨S540672, .f32⟩
  | 44 => ⟨S_, .i32⟩
  | 45 => ⟨S540672, .i32⟩
  | 46 => ⟨S540672, .i1⟩
  | 47 => ⟨S_, .i32⟩
  | 48 => ⟨S540672, .i32⟩
  | 49 => ⟨S540672, .i32⟩
  | 50 => ⟨S540672, .i32⟩
  | 51 => ⟨S540672x1, .i32⟩
  | 52 => ⟨S540672, .f32⟩
  | 53 => ⟨S540672, .f32⟩
  | 54 => ⟨S_, .i32⟩
  | 55 => ⟨S540672, .i32⟩
  | 56 => ⟨S540672, .i1⟩
  | 57 => ⟨S_, .i32⟩
  | 58 => ⟨S540672, .i32⟩
  | 59 => ⟨S540672, .i32⟩
  | 60 => ⟨S540672, .i32⟩
  | 61 => ⟨S540672x1, .i32⟩
  | 62 => ⟨S540672x64, .f32⟩
  | 63 => ⟨S540672x1, .f32⟩
  | 64 => ⟨S540672x64, .f32⟩
  | 65 => ⟨S540672x64, .f32⟩
  | 66 => ⟨S_, .f32⟩
  | 67 => ⟨S16384x64, .f32⟩
  | 68 => ⟨S540672x1, .i32⟩
  | 69 => ⟨S16384x64, .f32⟩
  | 70 => ⟨S1x64, .f32⟩
  | 71 => ⟨S16384x64, .f32⟩
  | 72 => ⟨S16384x64, .f32⟩
  | 73 => ⟨S_, .f32⟩
  | 74 => ⟨S16384x64, .f32⟩
  | 75 => ⟨S16384x64, .i1⟩
  | 76 => ⟨S16384x64, .f32⟩
  | 77 => ⟨S_, .f32⟩
  | 78 => ⟨S16384x64, .f32⟩
  | 79 => ⟨S16384x64, .f32⟩
  | 80 => ⟨S_, .f32⟩
  | 81 => ⟨S16384x64, .f32⟩
  | 82 => ⟨S16384x64, .f32⟩
  | 83 => ⟨S16384x64, .f32⟩
  | 84 => ⟨S_, .f32⟩
  | 85 => ⟨S16384x64, .f32⟩
  | 86 => ⟨S16384x64, .f32⟩
  | 87 => ⟨S16384x64, .f32⟩
  | 88 => ⟨S16384, .i32⟩
  | 89 => ⟨S540672, .i32⟩
  | 90 => ⟨S540672, .i32⟩
  | 91 => ⟨S_, .f32⟩
  | 92 => ⟨S540672, .f32⟩
  | 93 => ⟨S_, .f32⟩
  | 94 => ⟨S16384, .f32⟩
  | 95 => ⟨S540672x1, .i32⟩
  | 96 => ⟨S16384, .f32⟩
  | 97 => ⟨S_, .f32⟩
  | 98 => ⟨S16384, .f32⟩
  | 99 => ⟨S16384, .i1⟩
  | 100 => ⟨S_, .f32⟩
  | 101 => ⟨S16384, .f32⟩
  | 102 => ⟨S16384, .f32⟩
  | 103 => ⟨S16384, .f32⟩
  | 104 => ⟨S_, .f32⟩
  | 105 => ⟨S_, .f32⟩
  | 106 => ⟨S16384, .f32⟩
  | 107 => ⟨S16384, .f32⟩
  | 108 => ⟨S_, .i32⟩
  | 109 => ⟨S540672, .i32⟩
  | 110 => ⟨S540672, .i1⟩
  | 111 => ⟨S_, .i32⟩
  | 112 => ⟨S540672, .i32⟩
  | 113 => ⟨S540672, .i32⟩
  | 114 => ⟨S540672, .i32⟩
  | 115 => ⟨S540672x1, .i32⟩
  | 116 => ⟨S540672, .f32⟩
  | 117 => ⟨S_, .i32⟩
  | 118 => ⟨S540672, .i32⟩
  | 119 => ⟨S540672, .i1⟩
  | 120 => ⟨S_, .i32⟩
  | 121 => ⟨S540672, .i32⟩
  | 122 => ⟨S540672, .i32⟩
  | 123 => ⟨S540672, .i32⟩
  | 124 => ⟨S540672x1, .i32⟩
  | 125 => ⟨S540672, .f32⟩
  | 126 => ⟨S540672, .f32⟩
  | 127 => ⟨S_, .i32⟩
  | _ => ⟨S16384x4, .f32⟩

abbrev hbmTy0_1 (i : Nat) : BufTy := match i % 128 with
  | 0 => ⟨S540672, .i32⟩
  | 1 => ⟨S540672, .i1⟩
  | 2 => ⟨S_, .i32⟩
  | 3 => ⟨S540672, .i32⟩
  | 4 => ⟨S540672, .i32⟩
  | 5 => ⟨S540672, .i32⟩
  | 6 => ⟨S540672x1, .i32⟩
  | 7 => ⟨S540672x64, .f32⟩
  | 8 => ⟨S540672x1, .f32⟩
  | 9 => ⟨S540672x64, .f32⟩
  | 10 => ⟨S540672x64, .f32⟩
  | 11 => ⟨S_, .f32⟩
  | 12 => ⟨S16384x64, .f32⟩
  | 13 => ⟨S540672x1, .i32⟩
  | 14 => ⟨S16384x64, .f32⟩
  | 15 => ⟨S1x64, .f32⟩
  | 16 => ⟨S16384x64, .f32⟩
  | 17 => ⟨S16384x64, .f32⟩
  | 18 => ⟨S_, .f32⟩
  | 19 => ⟨S16384x64, .f32⟩
  | 20 => ⟨S16384x64, .i1⟩
  | 21 => ⟨S16384x64, .f32⟩
  | 22 => ⟨S_, .f32⟩
  | 23 => ⟨S16384x64, .f32⟩
  | 24 => ⟨S16384x64, .f32⟩
  | 25 => ⟨S_, .f32⟩
  | 26 => ⟨S16384x64, .f32⟩
  | 27 => ⟨S16384x64, .f32⟩
  | 28 => ⟨S16384x64, .f32⟩
  | 29 => ⟨S_, .f32⟩
  | 30 => ⟨S16384x64, .f32⟩
  | 31 => ⟨S16384x64, .f32⟩
  | 32 => ⟨S8x131072, .f32⟩
  | 33 => ⟨S1x2048, .f32⟩
  | 34 => ⟨S1x15, .f32⟩
  | 35 => ⟨S8x15, .f32⟩
  | _ => ⟨S16384x4, .f32⟩

abbrev hbmTy (i : Nat) : BufTy := match i / 128 with
  | 0 => hbmTy0_0 i
  | 1 => hbmTy0_1 i
  | _ => ⟨S16384x4, .f32⟩

abbrev bufTy : (tb : Table) → Fin (tcTables nBuf tb) → BufTy
  | .hbm, ⟨i, _⟩ => hbmTy i
  | .local _ .vmem, ⟨0, _⟩ => ⟨S8x1024, .f32⟩
  | .local _ .vmem, ⟨1, _⟩ => ⟨S8x1024, .f32⟩
  | .local _ .vmem, ⟨2, _⟩ => ⟨S1024x2048, .f32⟩
  | .local _ .vmem, ⟨3, _⟩ => ⟨S1024x2048, .f32⟩
  | .local _ .vmem, ⟨4, _⟩ => ⟨S1x2048, .f32⟩
  | .local _ .vmem, ⟨5, _⟩ => ⟨S2048x15, .f32⟩
  | .local _ .vmem, ⟨6, _⟩ => ⟨S1x15, .f32⟩
  | .local _ .vmem, ⟨7, _⟩ => ⟨S8x15, .f32⟩
  | .local _ .vmem, ⟨8, _⟩ => ⟨S8x2048, .f32⟩
  | _, _ => ⟨S16384x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_v53 : Ref sig .tc := ⟨.hbm, 79, rfl⟩
abbrev main_cst_12 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_13 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_14 : Ref sig .tc := ⟨.hbm, 91, rfl⟩
abbrev main_v63 : Ref sig .tc := ⟨.hbm, 92, rfl⟩
abbrev main_cst_15 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_16 : Ref sig .tc := ⟨.hbm, 97, rfl⟩
abbrev main_v67 : Ref sig .tc := ⟨.hbm, 98, rfl⟩
abbrev main_v68 : Ref sig .tc := ⟨.hbm, 99, rfl⟩
abbrev main_cst_17 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_18 : Ref sig .tc := ⟨.hbm, 104, rfl⟩
abbrev main_call2_v0 : Ref sig .tc := ⟨.hbm, 105, rfl⟩
abbrev main_call2_v1 : Ref sig .tc := ⟨.hbm, 106, rfl⟩
abbrev main_v72 : Ref sig .tc := ⟨.hbm, 107, rfl⟩
abbrev main_c_19 : Ref sig .tc := ⟨.hbm, 108, rfl⟩
abbrev main_v73 : Ref sig .tc := ⟨.hbm, 109, rfl⟩
abbrev main_v74 : Ref sig .tc := ⟨.hbm, 110, rfl⟩
abbrev main_c_20 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_c_21 : Ref sig .tc := ⟨.hbm, 117, rfl⟩
abbrev main_v80 : Ref sig .tc := ⟨.hbm, 118, rfl⟩
abbrev main_v81 : Ref sig .tc := ⟨.hbm, 119, rfl⟩
abbrev main_c_22 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_c_23 : Ref sig .tc := ⟨.hbm, 127, rfl⟩
abbrev main_v88 : Ref sig .tc := ⟨.hbm, 128, rfl⟩
abbrev main_v89 : Ref sig .tc := ⟨.hbm, 129, rfl⟩
abbrev main_c_24 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_25 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_26 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_27 : Ref sig .tc := ⟨.hbm, 150, rfl⟩
abbrev main_v107 : Ref sig .tc := ⟨.hbm, 151, rfl⟩
abbrev main_v108 : Ref sig .tc := ⟨.hbm, 152, rfl⟩
abbrev main_cst_28 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_cst_29 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v14 : BitVec 1 := Scalar.cmpi .eq arg0 c127_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x15 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x15 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x15 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  concatenates_S524288_S16384_S540672_d0 : Shape.Concatenates [S524288, S16384] S540672 0
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  bcast_S540672x1_S540672x64_0_1 : S540672x1.BroadcastsInDim S540672x64 (![0, 1] : Fin 2 → Fin S540672x64.rank)
  bcast_S_S16384x64 : S_.BroadcastsInDim S16384x64 (![] : Fin 0 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  shapeCasts_S16384x64_S8x131072 : S16384x64.ShapeCasts S8x131072
  shapeCasts_S2048_S1x2048 : S2048.ShapeCasts S1x2048
  shapeCasts_S15_S1x15 : S15.ShapeCasts S1x15
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S8x2048 : S1x2048.Broadcasts S8x2048
  inb_S2048x15_S2048x15_0_0 : ∀ a, (![0, 0] : Fin 2 → Nat) a + S2048x15.size a ≤ S2048x15.size a
  h_S2048x15 : 0 < S2048x15.numel
  inb_S1x15_S1x15_0_0 : ∀ a, (![0, 0] : Fin 2 → Nat) a + S1x15.size a ≤ S1x15.size a
  h_S1x15 : 0 < S1x15.numel
  shapeCasts_S1x15_S1x15 : S1x15.ShapeCasts S1x15
  broadcasts_S1x15_S8x15 : S1x15.Broadcasts S8x15
  inb_S8x15_S8x15_0_0 : ∀ a, (![0, 0] : Fin 2 → Nat) a + S8x15.size a ≤ S8x15.size a
  h_S8x15 : 0 < S8x15.numel
  dot_S16384x4_S4x64_S16384x64_1_0_0_1_n_n_wf : DotDims.WF S16384x4 S4x64 S16384x64 [1] [0] [0] [1] [] []
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  gather_S16384x64_S540672x1_S540672x64_1_0_n_n_0_1_164_wf : GatherDims.WF S16384x64 S540672x1 S540672x64 [1] [0] [] [0] [] 1 ![1, 64]
  scatter_S16384x64_S540672x1_S540672x64_1_0_0_1_wf : ScatterDims.WF S16384x64 S540672x1 S540672x64 [1] [0] [0] 1
  dot_S16384x64_S64x64_S16384x64_1_0_0_1_n_n_wf : DotDims.WF S16384x64 S64x64 S16384x64 [1] [0] [0] [1] [] []
  dot_S8x1024_S1024x2048_S8x2048_1_0_0_1_n_n_wf : DotDims.WF S8x1024 S1024x2048 S8x2048 [1] [0] [0] [1] [] []
  dot_S8x2048_S2048x15_S8x15_1_0_0_1_n_n_wf : DotDims.WF S8x2048 S2048x15 S8x15 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024.size a ≤ S8x131072.size a
  hwx0_0 : ∀ i : grid0.Coords, EltTy.bits .f32 = 32 ∨ (Rect.block (s := S8x131072) S8x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S131072x2048.size a
  hwx0_1 : ∀ i : grid0.Coords, EltTy.bits .f32 = 32 ∨ (Rect.block (s := S131072x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x15.size a ≤ S2048x15.size a
  hwx0_3 : ∀ i : grid0.Coords, EltTy.bits .f32 = 32 ∨ (Rect.block (s := S2048x15) S2048x15.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x15.size a ≤ S1x15.size a
  hwx0_4 : ∀ i : grid0.Coords, EltTy.bits .f32 = 32 ∨ (Rect.block (s := S1x15) S1x15.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x15.size a ≤ S8x15.size a
  hwx0_5 : ∀ i : grid0.Coords, EltTy.bits .f32 = 32 ∨ (Rect.block (s := S8x15) S8x15.size (cc0_transform_5 i) (hinb0_5 i)).WholeWords (EltTy.packing .f32)

variable [Facts₀]

def dot_S16384x4_S4x64_S16384x64_1_0_0_1_n_n : DotDims S16384x4 S4x64 S16384x64 where
  lhsContracting := [1]
  rhsContracting := [0]
  lhsNonContracting := [0]
  rhsNonContracting := [1]
  lhsBatch := []
  rhsBatch := []
  wf := dot_S16384x4_S4x64_S16384x64_1_0_0_1_n_n_wf
def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def gather_S16384x64_S540672x1_S540672x64_1_0_n_n_0_1_164 : GatherDims S16384x64 S540672x1 S540672x64 where
  offsetDims := [1]
  collapsedSliceDims := [0]
  operandBatchingDims := []
  startIndicesBatchingDims := []
  startIndexMap := [0]
  indexVectorDim := 1
  sliceSizes := ![1, 64]
  wf := gather_S16384x64_S540672x1_S540672x64_1_0_n_n_0_1_164_wf
def scatter_S16384x64_S540672x1_S540672x64_1_0_0_1 : ScatterDims S16384x64 S540672x1 S540672x64 where
  updateWindowDims := [1]
  insertedWindowDims := [0]
  scatterDimsToOperandDims := [0]
  indexVectorDim := 1
  wf := scatter_S16384x64_S540672x1_S540672x64_1_0_0_1_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S8x1024_S1024x2048_S8x2048_1_0_0_1_n_n : DotDims S8x1024 S1024x2048 S8x2048 where
  lhsContracting := [1]
  rhsContracting := [0]
  lhsNonContracting := [0]
  rhsNonContracting := [1]
  lhsBatch := []
  rhsBatch := []
  wf := dot_S8x1024_S1024x2048_S8x2048_1_0_0_1_n_n_wf
def dot_S8x2048_S2048x15_S8x15_1_0_0_1_n_n : DotDims S8x2048 S2048x15 S8x15 where
  lhsContracting := [1]
  rhsContracting := [0]
  lhsNonContracting := [0]
  rhsNonContracting := [1]
  lhsBatch := []
  rhsBatch := []
  wf := dot_S8x2048_S2048x15_S8x15_1_0_0_1_n_n_wf

abbrev win0_0 : Pipeline.Window sig grid0 :=
  Pipeline.Window.ofSpec (Memref.whole main_v114) S8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v115) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S2048x15.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v116) S1x15.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v117) S8x15.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16384x4 : Shape := ⟨2, ![16384, 4]⟩
abbrev S2x524288 : Shape := ⟨2, ![2, 524288]⟩
abbrev S4x64 : Shape := ⟨2, ![4, 64]⟩
abbrev S64 : Shape := ⟨1, ![64]⟩
abbrev S64x64 : Shape := ⟨2, ![64, 64]⟩
abbrev S131072x2048 : Shape := ⟨2, ![131072, 2048]⟩
abbrev S2048 : Shape := ⟨1, ![2048]⟩
abbrev S2048x15 : Shape := ⟨2, ![2048, 15]⟩
abbrev S15 : Shape := ⟨1, ![15]⟩
abbrev S1x524288 : Shape := ⟨2, ![1, 524288]⟩
abbrev S524288 : Shape := ⟨1, ![524288]⟩
abbrev S16384x64 : Shape := ⟨2, ![16384, 64]⟩
abbrev S16384 : Shape := ⟨1, ![16384]⟩
abbrev S540672 : Shape := ⟨1, ![540672]⟩
abbrev S_ : Shape := ⟨0, ![]⟩
abbrev S540672x1 : Shape := ⟨2, ![540672, 1]⟩
abbrev S540672x64 : Shape := ⟨2, ![540672, 64]⟩
abbrev S1x64 : Shape := ⟨2, ![1, 64]⟩
abbrev S8x131072 : Shape := ⟨2, ![8, 131072]⟩
abbrev S8x2048 : Shape := ⟨2, ![8, 2048]⟩
abbrev S1x2048 : Shape := ⟨2, ![1, 2048]⟩
abbrev S8x15 : Shape := ⟨2, ![8, 15]⟩
abbrev S1x15 : Shape := ⟨2, ![1, 15]⟩

abbrev nBuf : Space → Nat
  | .hbm => 198
  | .vmem => 0
  | .smem => 0
  | _ => 0

abbrev hbmTy0_0 (i : Nat) : BufTy := match i % 128 with
  | 0 => ⟨S16384x4, .f32⟩
  | 1 => ⟨S2x524288, .i32⟩
  | 2 => ⟨S4x64, .f32⟩
  | 3 => ⟨S64, .f32⟩
  | 4 => ⟨S64x64, .f32⟩
  | 5 => ⟨S64, .f32⟩
  | 6 => ⟨S131072x2048, .f32⟩
  | 7 => ⟨S2048, .f32⟩
  | 8 => ⟨S2048x15, .f32⟩
  | 9 => ⟨S15, .f32⟩
  | 10 => ⟨S1x524288, .i32⟩
  | 11 => ⟨S524288, .i32⟩
  | 12 => ⟨S1x524288, .i32⟩
  | 13 => ⟨S524288, .i32⟩
  | 14 => ⟨S16384x64, .f32⟩
  | 15 => ⟨S16384, .i32⟩
  | 16 => ⟨S540672, .i32⟩
  | 17 => ⟨S540672, .i32⟩
  | 18 => ⟨S_, .f32⟩
  | 19 => ⟨S540672, .f32⟩
  | 20 => ⟨S_, .f32⟩
  | 21 => ⟨S16384, .f32⟩
  | 22 => ⟨S540672x1, .i32⟩
  | 23 => ⟨S16384, .f32⟩
  | 24 => ⟨S_, .f32⟩
  | 25 => ⟨S16384, .f32⟩
  | 26 => ⟨S16384, .i1⟩
  | 27 => ⟨S_, .f32⟩
  | 28 => ⟨S16384, .f32⟩
  | 29 => ⟨S16384, .f32⟩
  | 30 => ⟨S16384, .f32⟩
  | 31 => ⟨S_, .f32⟩
  | 32 => ⟨S_, .f32⟩
  | 33 => ⟨S16384, .f32⟩
  | 34 => ⟨S16384, .f32⟩
  | 35 => ⟨S_, .i32⟩
  | 36 => ⟨S540672, .i32⟩
  | 37 => ⟨S540672, .i1⟩
  | 38 => ⟨S_, .i32⟩
  | 39 => ⟨S540672, .i32⟩
  | 40 => ⟨S540672, .i32⟩
  | 41 => ⟨S540672, .i32⟩
  | 42 => ⟨S540672x1, .i32⟩
  | 43 => ⟨S540672, .f32⟩
  | 44 => ⟨S_, .i32⟩
  | 45 => ⟨S540672, .i32⟩
  | 46 => ⟨S540672, .i1⟩
  | 47 => ⟨S_, .i32⟩
  | 48 => ⟨S540672, .i32⟩
  | 49 => ⟨S540672, .i32⟩
  | 50 => ⟨S540672, .i32⟩
  | 51 => ⟨S540672x1, .i32⟩
  | 52 => ⟨S540672, .f32⟩
  | 53 => ⟨S540672, .f32⟩
  | 54 => ⟨S_, .i32⟩
  | 55 => ⟨S540672, .i32⟩
  | 56 => ⟨S540672, .i1⟩
  | 57 => ⟨S_, .i32⟩
  | 58 => ⟨S540672, .i32⟩
  | 59 => ⟨S540672, .i32⟩
  | 60 => ⟨S540672, .i32⟩
  | 61 => ⟨S540672x1, .i32⟩
  | 62 => ⟨S540672x64, .f32⟩
  | 63 => ⟨S540672x1, .f32⟩
  | 64 => ⟨S540672x64, .f32⟩
  | 65 => ⟨S540672x64, .f32⟩
  | 66 => ⟨S_, .f32⟩
  | 67 => ⟨S16384x64, .f32⟩
  | 68 => ⟨S540672x1, .i32⟩
  | 69 => ⟨S16384x64, .f32⟩
  | 70 => ⟨S1x64, .f32⟩
  | 71 => ⟨S16384x64, .f32⟩
  | 72 => ⟨S16384x64, .f32⟩
  | 73 => ⟨S_, .f32⟩
  | 74 => ⟨S_, .f32⟩
  | 75 => ⟨S16384x64, .f32⟩
  | 76 => ⟨S16384x64, .i1⟩
  | 77 => ⟨S_, .f32⟩
  | 78 => ⟨S16384x64, .f32⟩
  | 79 => ⟨S16384x64, .i1⟩
  | 80 => ⟨S_, .f32⟩
  | 81 => ⟨S_, .f32⟩
  | 82 => ⟨S16384x64, .f32⟩
  | 83 => ⟨S16384x64, .f32⟩
  | 84 => ⟨S16384x64, .f32⟩
  | 85 => ⟨S_, .f32⟩
  | 86 => ⟨S16384x64, .f32⟩
  | 87 => ⟨S16384x64, .f32⟩
  | 88 => ⟨S16384x64, .f32⟩
  | 89 => ⟨S_, .f32⟩
  | 90 => ⟨S16384x64, .f32⟩
  | 91 => ⟨S16384x64, .f32⟩
  | 92 => ⟨S16384x64, .f32⟩
  | 93 => ⟨S16384, .i32⟩
  | 94 => ⟨S540672, .i32⟩
  | 95 => ⟨S540672, .i32⟩
  | 96 => ⟨S_, .f32⟩
  | 97 => ⟨S540672, .f32⟩
  | 98 => ⟨S_, .f32⟩
  | 99 => ⟨S16384, .f32⟩
  | 100 => ⟨S540672x1, .i32⟩
  | 101 => ⟨S16384, .f32⟩
  | 102 => ⟨S_, .f32⟩
  | 103 => ⟨S16384, .f32⟩
  | 104 => ⟨S16384, .i1⟩
  | 105 => ⟨S_, .f32⟩
  | 106 => ⟨S16384, .f32⟩
  | 107 => ⟨S16384, .f32⟩
  | 108 => ⟨S16384, .f32⟩
  | 109 => ⟨S_, .f32⟩
  | 110 => ⟨S_, .f32⟩
  | 111 => ⟨S16384, .f32⟩
  | 112 => ⟨S16384, .f32⟩
  | 113 => ⟨S_, .i32⟩
  | 114 => ⟨S540672, .i32⟩
  | 115 => ⟨S540672, .i1⟩
  | 116 => ⟨S_, .i32⟩
  | 117 => ⟨S540672, .i32⟩
  | 118 => ⟨S540672, .i32⟩
  | 119 => ⟨S540672, .i32⟩
  | 120 => ⟨S540672x1, .i32⟩
  | 121 => ⟨S540672, .f32⟩
  | 122 => ⟨S_, .i32⟩
  | 123 => ⟨S540672, .i32⟩
  | 124 => ⟨S540672, .i1⟩
  | 125 => ⟨S_, .i32⟩
  | 126 => ⟨S540672, .i32⟩
  | 127 => ⟨S540672, .i32⟩
  | _ => ⟨S16384x4, .f32⟩

abbrev hbmTy0_1 (i : Nat) : BufTy := match i % 128 with
  | 0 => ⟨S540672, .i32⟩
  | 1 => ⟨S540672x1, .i32⟩
  | 2 => ⟨S540672, .f32⟩
  | 3 => ⟨S540672, .f32⟩
  | 4 => ⟨S_, .i32⟩
  | 5 => ⟨S540672, .i32⟩
  | 6 => ⟨S540672, .i1⟩
  | 7 => ⟨S_, .i32⟩
  | 8 => ⟨S540672, .i32⟩
  | 9 => ⟨S540672, .i32⟩
  | 10 => ⟨S540672, .i32⟩
  | 11 => ⟨S540672x1, .i32⟩
  | 12 => ⟨S540672x64, .f32⟩
  | 13 => ⟨S540672x1, .f32⟩
  | 14 => ⟨S540672x64, .f32⟩
  | 15 => ⟨S540672x64, .f32⟩
  | 16 => ⟨S_, .f32⟩
  | 17 => ⟨S16384x64, .f32⟩
  | 18 => ⟨S540672x1, .i32⟩
  | 19 => ⟨S16384x64, .f32⟩
  | 20 => ⟨S1x64, .f32⟩
  | 21 => ⟨S16384x64, .f32⟩
  | 22 => ⟨S16384x64, .f32⟩
  | 23 => ⟨S_, .f32⟩
  | 24 => ⟨S_, .f32⟩
  | 25 => ⟨S16384x64, .f32⟩
  | 26 => ⟨S16384x64, .i1⟩
  | 27 => ⟨S_, .f32⟩
  | 28 => ⟨S16384x64, .f32⟩
  | 29 => ⟨S16384x64, .i1⟩
  | 30 => ⟨S_, .f32⟩
  | 31 => ⟨S_, .f32⟩
  | 32 => ⟨S16384x64, .f32⟩
  | 33 => ⟨S16384x64, .f32⟩
  | 34 => ⟨S16384x64, .f32⟩
  | 35 => ⟨S_, .f32⟩
  | 36 => ⟨S16384x64, .f32⟩
  | 37 => ⟨S16384x64, .f32⟩
  | 38 => ⟨S16384x64, .f32⟩
  | 39 => ⟨S_, .f32⟩
  | 40 => ⟨S16384x64, .f32⟩
  | 41 => ⟨S16384x64, .f32⟩
  | 42 => ⟨S8x131072, .f32⟩
  | 43 => ⟨S8x2048, .f32⟩
  | 44 => ⟨S1x2048, .f32⟩
  | 45 => ⟨S8x2048, .f32⟩
  | 46 => ⟨S8x2048, .f32⟩
  | 47 => ⟨S_, .f32⟩
  | 48 => ⟨S_, .f32⟩
  | 49 => ⟨S8x2048, .f32⟩
  | 50 => ⟨S8x2048, .i1⟩
  | 51 => ⟨S_, .f32⟩
  | 52 => ⟨S8x2048, .f32⟩
  | 53 => ⟨S8x2048, .i1⟩
  | 54 => ⟨S_, .f32⟩
  | 55 => ⟨S_, .f32⟩
  | 56 => ⟨S8x2048, .f32⟩
  | 57 => ⟨S8x2048, .f32⟩
  | 58 => ⟨S8x2048, .f32⟩
  | 59 => ⟨S_, .f32⟩
  | 60 => ⟨S8x2048, .f32⟩
  | 61 => ⟨S8x2048, .f32⟩
  | 62 => ⟨S8x2048, .f32⟩
  | 63 => ⟨S_, .f32⟩
  | 64 => ⟨S8x2048, .f32⟩
  | 65 => ⟨S8x2048, .f32⟩
  | 66 => ⟨S8x15, .f32⟩
  | 67 => ⟨S1x15, .f32⟩
  | 68 => ⟨S8x15, .f32⟩
  | 69 => ⟨S8x15, .f32⟩
  | _ => ⟨S16384x4, .f32⟩

abbrev hbmTy (i : Nat) : BufTy := match i / 128 with
  | 0 => hbmTy0_0 i
  | 1 => hbmTy0_1 i
  | _ => ⟨S16384x4, .f32⟩

abbrev bufTy : (tb : Table) → Fin (tcTables nBuf tb) → BufTy
  | .hbm, ⟨i, _⟩ => hbmTy i
  | _, _ => ⟨S16384x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_call0_cst : Ref sig .tc := ⟨.hbm, 74, rfl⟩
abbrev main_call1_call0_v0 : Ref sig .tc := ⟨.hbm, 75, rfl⟩
abbrev main_call1_call0_v1 : Ref sig .tc := ⟨.hbm, 76, rfl⟩
abbrev main_call1_call0_cst_0 : Ref sig .tc := ⟨.hbm, 77, rfl⟩
abbrev main_call1_call0_v2 : Ref sig .tc := ⟨.hbm, 78, rfl⟩
abbrev main_call1_call0_v3 : Ref sig .tc := ⟨.hbm, 79, rfl⟩
abbrev main_call1_call0_cst_1 : Ref sig .tc := ⟨.hbm, 80, rfl⟩
abbrev main_call1_call0_call0_v0 : Ref sig .tc := ⟨.hbm, 81, rfl⟩
abbrev main_call1_call0_call0_v1 : Ref sig .tc := ⟨.hbm, 82, rfl⟩
abbrev main_call1_call0_v4 : Ref sig .tc := ⟨.hbm, 83, rfl⟩
abbrev main_call1_call0_v5 : Ref sig .tc := ⟨.hbm, 84, rfl⟩
abbrev main_call1_call0_v6 : Ref sig .tc := ⟨.hbm, 85, rfl⟩
abbrev main_call1_call0_v7 : Ref sig .tc := ⟨.hbm, 86, rfl⟩
abbrev main_call1_call0_v8 : Ref sig .tc := ⟨.hbm, 87, rfl⟩
abbrev main_call1_v0 : Ref sig .tc := ⟨.hbm, 88, rfl⟩
abbrev main_call1_cst_0 : Ref sig .tc := ⟨.hbm, 89, rfl⟩
abbrev main_call1_v1 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_cst_10 : Ref sig .tc := ⟨.hbm, 96, rfl⟩
abbrev main_v54 : Ref sig .tc := ⟨.hbm, 97, rfl⟩
abbrev main_cst_11 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_12 : Ref sig .tc := ⟨.hbm, 102, rfl⟩
abbrev main_v58 : Ref sig .tc := ⟨.hbm, 103, rfl⟩
abbrev main_v59 : Ref sig .tc := ⟨.hbm, 104, rfl⟩
abbrev main_cst_13 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_cst_14 : Ref sig .tc := ⟨.hbm, 109, rfl⟩
abbrev main_call2_v0 : Ref sig .tc := ⟨.hbm, 110, rfl⟩
abbrev main_call2_v1 : Ref sig .tc := ⟨.hbm, 111, rfl⟩
abbrev main_v63 : Ref sig .tc := ⟨.hbm, 112, rfl⟩
abbrev main_c_15 : Ref sig .tc := ⟨.hbm, 113, rfl⟩
abbrev main_v64 : Ref sig .tc := ⟨.hbm, 114, rfl⟩
abbrev main_v65 : Ref sig .tc := ⟨.hbm, 115, rfl⟩
abbrev main_c_16 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_c_17 : Ref sig .tc := ⟨.hbm, 122, rfl⟩
abbrev main_v71 : Ref sig .tc := ⟨.hbm, 123, rfl⟩
abbrev main_v72 : Ref sig .tc := ⟨.hbm, 124, rfl⟩
abbrev main_c_18 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_c_19 : Ref sig .tc := ⟨.hbm, 132, rfl⟩
abbrev main_v79 : Ref sig .tc := ⟨.hbm, 133, rfl⟩
abbrev main_v80 : Ref sig .tc := ⟨.hbm, 134, rfl⟩
abbrev main_c_20 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_cst_21 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_call3_cst : Ref sig .tc := ⟨.hbm, 151, rfl⟩
abbrev main_call3_call0_cst : Ref sig .tc := ⟨.hbm, 152, rfl⟩
abbrev main_call3_call0_v0 : Ref sig .tc := ⟨.hbm, 153, rfl⟩
abbrev main_call3_call0_v1 : Ref sig .tc := ⟨.hbm, 154, rfl⟩
abbrev main_call3_call0_cst_0 : Ref sig .tc := ⟨.hbm, 155, rfl⟩
abbrev main_call3_call0_v2 : Ref sig .tc := ⟨.hbm, 156, rfl⟩
abbrev main_call3_call0_v3 : Ref sig .tc := ⟨.hbm, 157, rfl⟩
abbrev main_call3_call0_cst_1 : Ref sig .tc := ⟨.hbm, 158, rfl⟩
abbrev main_call3_call0_call0_v0 : Ref sig .tc := ⟨.hbm, 159, rfl⟩
abbrev main_call3_call0_call0_v1 : Ref sig .tc := ⟨.hbm, 160, rfl⟩
abbrev main_call3_call0_v4 : Ref sig .tc := ⟨.hbm, 161, rfl⟩
abbrev main_call3_call0_v5 : Ref sig .tc := ⟨.hbm, 162, rfl⟩
abbrev main_call3_call0_v6 : Ref sig .tc := ⟨.hbm, 163, rfl⟩
abbrev main_call3_call0_v7 : Ref sig .tc := ⟨.hbm, 164, rfl⟩
abbrev main_call3_call0_v8 : Ref sig .tc := ⟨.hbm, 165, rfl⟩
abbrev main_call3_v0 : Ref sig .tc := ⟨.hbm, 166, rfl⟩
abbrev main_call3_cst_0 : Ref sig .tc := ⟨.hbm, 167, rfl⟩
abbrev main_call3_v1 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_call4_cst : Ref sig .tc := ⟨.hbm, 175, rfl⟩
abbrev main_call4_call0_cst : Ref sig .tc := ⟨.hbm, 176, rfl⟩
abbrev main_call4_call0_v0 : Ref sig .tc := ⟨.hbm, 177, rfl⟩
abbrev main_call4_call0_v1 : Ref sig .tc := ⟨.hbm, 178, rfl⟩
abbrev main_call4_call0_cst_0 : Ref sig .tc := ⟨.hbm, 179, rfl⟩
abbrev main_call4_call0_v2 : Ref sig .tc := ⟨.hbm, 180, rfl⟩
abbrev main_call4_call0_v3 : Ref sig .tc := ⟨.hbm, 181, rfl⟩
abbrev main_call4_call0_cst_1 : Ref sig .tc := ⟨.hbm, 182, rfl⟩
abbrev main_call4_call0_call0_v0 : Ref sig .tc := ⟨.hbm, 183, rfl⟩
abbrev main_call4_call0_call0_v1 : Ref sig .tc := ⟨.hbm, 184, rfl⟩
abbrev main_call4_call0_v4 : Ref sig .tc := ⟨.hbm, 185, rfl⟩
abbrev main_call4_call0_v5 : Ref sig .tc := ⟨.hbm, 186, rfl⟩
abbrev main_call4_call0_v6 : Ref sig .tc := ⟨.hbm, 187, rfl⟩
abbrev main_call4_call0_v7 : Ref sig .tc := ⟨.hbm, 188, rfl⟩
abbrev main_call4_call0_v8 : Ref sig .tc := ⟨.hbm, 189, rfl⟩
abbrev main_call4_v0 : Ref sig .tc := ⟨.hbm, 190, rfl⟩
abbrev main_call4_cst_0 : Ref sig .tc := ⟨.hbm, 191, rfl⟩
abbrev main_call4_v1 : Ref sig .tc := ⟨.hbm, 192, rfl⟩
abbrev main_v101 : Ref sig .tc := ⟨.hbm, 193, rfl⟩
abbrev main_v102 : Ref sig .tc := ⟨.hbm, 194, rfl⟩
abbrev main_v103 : Ref sig .tc := ⟨.hbm, 195, rfl⟩
abbrev main_v104 : Ref sig .tc := ⟨.hbm, 196, rfl⟩
abbrev main_v105 : Ref sig .tc := ⟨.hbm, 197, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  concatenates_S524288_S16384_S540672_d0 : Shape.Concatenates [S524288, S16384] S540672 0
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  bcast_S540672x1_S540672x64_0_1 : S540672x1.BroadcastsInDim S540672x64 (![0, 1] : Fin 2 → Fin S540672x64.rank)
  bcast_S_S16384x64 : S_.BroadcastsInDim S16384x64 (![] : Fin 0 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  shapeCasts_S16384x64_S8x131072 : S16384x64.ShapeCasts S8x131072
  bcast_S2048_S1x2048_1 : S2048.BroadcastsInDim S1x2048 (![1] : Fin 1 → Fin S1x2048.rank)
  bcast_S1x2048_S8x2048_0_1 : S1x2048.BroadcastsInDim S8x2048 (![0, 1] : Fin 2 → Fin S8x2048.rank)
  bcast_S_S8x2048 : S_.BroadcastsInDim S8x2048 (![] : Fin 0 → Fin S8x2048.rank)
  bcast_S15_S1x15_1 : S15.BroadcastsInDim S1x15 (![1] : Fin 1 → Fin S1x15.rank)
  bcast_S1x15_S8x15_0_1 : S1x15.BroadcastsInDim S8x15 (![0, 1] : Fin 2 → Fin S8x15.rank)
  dot_S16384x4_S4x64_S16384x64_1_0_0_1_n_n_wf : DotDims.WF S16384x4 S4x64 S16384x64 [1] [0] [0] [1] [] []
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  gather_S16384x64_S540672x1_S540672x64_1_0_n_n_0_1_164_wf : GatherDims.WF S16384x64 S540672x1 S540672x64 [1] [0] [] [0] [] 1 ![1, 64]
  scatter_S16384x64_S540672x1_S540672x64_1_0_0_1_wf : ScatterDims.WF S16384x64 S540672x1 S540672x64 [1] [0] [0] 1
  dot_S16384x64_S64x64_S16384x64_1_0_0_1_n_n_wf : DotDims.WF S16384x64 S64x64 S16384x64 [1] [0] [0] [1] [] []
  dot_S8x131072_S131072x2048_S8x2048_1_0_0_1_n_n_wf : DotDims.WF S8x131072 S131072x2048 S8x2048 [1] [0] [0] [1] [] []
  dot_S8x2048_S2048x15_S8x15_1_0_0_1_n_n_wf : DotDims.WF S8x2048 S2048x15 S8x15 [1] [0] [0] [1] [] []

variable [Facts₀]

def dot_S16384x4_S4x64_S16384x64_1_0_0_1_n_n : DotDims S16384x4 S4x64 S16384x64 where
  lhsContracting := [1]
  rhsContracting := [0]
  lhsNonContracting := [0]
  rhsNonContracting := [1]
  lhsBatch := []
  rhsBatch := []
  wf := dot_S16384x4_S4x64_S16384x64_1_0_0_1_n_n_wf
def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def gather_S16384x64_S540672x1_S540672x64_1_0_n_n_0_1_164 : GatherDims S16384x64 S540672x1 S540672x64 where
  offsetDims := [1]
  collapsedSliceDims := [0]
  operandBatchingDims := []
  startIndicesBatchingDims := []
  startIndexMap := [0]
  indexVectorDim := 1
  sliceSizes := ![1, 64]
  wf := gather_S16384x64_S540672x1_S540672x64_1_0_n_n_0_1_164_wf
def scatter_S16384x64_S540672x1_S540672x64_1_0_0_1 : ScatterDims S16384x64 S540672x1 S540672x64 where
  updateWindowDims := [1]
  insertedWindowDims := [0]
  scatterDimsToOperandDims := [0]
  indexVectorDim := 1
  wf := scatter_S16384x64_S540672x1_S540672x64_1_0_0_1_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S8x131072_S131072x2048_S8x2048_1_0_0_1_n_n : DotDims S8x131072 S131072x2048 S8x2048 where
  lhsContracting := [1]
  rhsContracting := [0]
  lhsNonContracting := [0]
  rhsNonContracting := [1]
  lhsBatch := []
  rhsBatch := []
  wf := dot_S8x131072_S131072x2048_S8x2048_1_0_0_1_n_n_wf
def dot_S8x2048_S2048x15_S8x15_1_0_0_1_n_n : DotDims S8x2048 S2048x15 S8x15 where
  lhsContracting := [1]
  rhsContracting := [0]
  lhsNonContracting := [0]
  rhsNonContracting := [1]
  lhsBatch := []
  rhsBatch := []
  wf := dot_S8x2048_S2048x15_S8x15_1_0_0_1_n_n_wf

class Facts : Prop extends Facts₀ where

variable [Facts]
-- ==== Proof.KernelValue.lean ====
/-
  What the kernel's run leaves in its result array.

  The kernel sweeps 128 steps over the contraction axis. The first step clears an 8 × 2048 accumulator; every step
  adds to it the product of the step's 8 × 1024 block of the flattened features with the step's 1024 × 2048 block of
  the first dense weight; the last step adds the bias row, applies the activation, multiplies by the second dense
  weight, adds the second bias row and writes the 8 × 15 result. Here the run's own record of what each step leaves
  is read back as these values, step by step, and the result array is the last step's write.
-/
import proofs.«154179_j72851235275292_1_alg».proof.Proof.Gen.KernelIdeal.Frame
import proofs.«154179_j72851235275292_1_alg».proof.Proof.Gen.KernelIdeal.Value
import Idealize.ShloMosaic.Lib.Pipeline.Value
import Idealize.ShloMosaic.Lib.Tactic

noncomputable section
open Idealize.ShloMosaic Idealize.ShloMosaic.TcCoe Idealize.SL.Sem
open Idealize.ShloMosaic.Pipeline (Dat)
namespace Cert.KernelIdeal.KValue
open Cert.KernelIdeal Cert.KernelIdeal.Gen
variable {F : FTy → Type} [FloatOps F]

theorem hz : (![0, 0] : Fin 2 → Nat) = fun _ => 0 := funext fun a => by fin_cases a <;> rfl

/-- A middle step leaves in the accumulator what it held plus the product of the step's two blocks. -/
theorem sB (c : Dev nD) (i : grid0.Coords) (a1 : Memref sig .tc .vmem S8x1024 .f32) (h1 : a1.IsWhole) (a2 : Memref sig .tc .vmem S1024x2048 .f32) (h2 : a2.IsWhole) (a3 : Memref sig .tc .vmem S1x2048 .f32) (h3 : a3.IsWhole) (a4 : Memref sig .tc .vmem S2048x15 .f32) (h4 : a4.IsWhole) (a5 : Memref sig .tc .vmem S1x15 .f32) (h5 : a5.IsWhole) (a6 : Memref sig .tc .vmem S8x15 .f32) (h6 : a6.IsWhole) (a7 : Memref sig .tc .vmem S8x2048 .f32) (h7 : a7.IsWhole) (hc0 : ¬cond0_0 i) (hc1 : ¬cond0_1 i) (x0 : Vec F S8x1024 .f32) (x1 : Vec F S1024x2048 .f32) (x2 : Vec F S1x2048 .f32) (x3 : Vec F S2048x15 .f32) (x4 : Vec F S1x15 .f32) (xs0 : Vec F S8x2048 .f32) :
    sout0_B_0 c i a1 h1 a2 h2 a3 h3 a4 h4 a5 h5 a6 h6 a7 h7 hc0 hc1 x0 x1 x2 x3 x4 xs0 = k0_pay2 x0 x1 xs0 := by
  unfold sout0_B_0
  rw [View.read_writes_eq_canon _ _ _ (scover0_B_0 c i a1 h1 a2 h2 a3 h3 a4 h4 a5 h5 a6 h6 a7 h7 hc0 hc1 x0 x1 x2 x3 x4 xs0)]
  unfold kernelRun0_B
  dsimp only
  rw [View.canon_unit_zero hz]
  simp only [View.readAt_eq_ld, h1.read_unread, h2.read_unread, h7.read_unread, View.ld_unit_zero (S := S8x1024) hz,
    View.ld_unit_zero (S := S1024x2048) hz, View.ld_unit_zero (S := S8x2048) hz]

/-- The last step leaves the same in the accumulator. -/
theorem sC (c : Dev nD) (i : grid0.Coords) (a1 : Memref sig .tc .vmem S8x1024 .f32) (h1 : a1.IsWhole) (a2 : Memref sig .tc .vmem S1024x2048 .f32) (h2 : a2.IsWhole) (a3 : Memref sig .tc .vmem S1x2048 .f32) (h3 : a3.IsWhole) (a4 : Memref sig .tc .vmem S2048x15 .f32) (h4 : a4.IsWhole) (a5 : Memref sig .tc .vmem S1x15 .f32) (h5 : a5.IsWhole) (a6 : Memref sig .tc .vmem S8x15 .f32) (h6 : a6.IsWhole) (a7 : Memref sig .tc .vmem S8x2048 .f32) (h7 : a7.IsWhole) (hc0 : ¬cond0_0 i) (hc1 : cond0_1 i) (x0 : Vec F S8x1024 .f32) (x1 : Vec F S1024x2048 .f32) (x2 : Vec F S1x2048 .f32) (x3 : Vec F S2048x15 .f32) (x4 : Vec F S1x15 .f32) (xs0 : Vec F S8x2048 .f32) :
    sout0_C_0 c i a1 h1 a2 h2 a3 h3 a4 h4 a5 h5 a6 h6 a7 h7 hc0 hc1 x0 x1 x2 x3 x4 xs0 = k0_pay2 x0 x1 xs0 := by
  unfold sout0_C_0
  rw [View.read_writes_eq_canon _ _ _ (scover0_C_0 c i a1 h1 a2 h2 a3 h3 a4 h4 a5 h5 a6 h6 a7 h7 hc0 hc1 x0 x1 x2 x3 x4 xs0)]
  unfold kernelRun0_C
  dsimp only
  sl_unfold_words
  rw [View.canon_unit_zero hz]
  simp only [View.readAt_eq_ld, h1.read_unread, h2.read_unread, h7.read_unread, View.ld_unit_zero (S := S8x1024) hz,
    View.ld_unit_zero (S := S1024x2048) hz, View.ld_unit_zero (S := S8x2048) hz]

/-- The first step clears the accumulator and then adds the product of its two blocks. -/
theorem sA (c : Dev nD) (i : grid0.Coords) (a1 : Memref sig .tc .vmem S8x1024 .f32) (h1 : a1.IsWhole) (a2 : Memref sig .tc .vmem S1024x2048 .f32) (h2 : a2.IsWhole) (a3 : Memref sig .tc .vmem S1x2048 .f32) (h3 : a3.IsWhole) (a4 : Memref sig .tc .vmem S2048x15 .f32) (h4 : a4.IsWhole) (a5 : Memref sig .tc .vmem S1x15 .f32) (h5 : a5.IsWhole) (a6 : Memref sig .tc .vmem S8x15 .f32) (h6 : a6.IsWhole) (a7 : Memref sig .tc .vmem S8x2048 .f32) (h7 : a7.IsWhole) (hc0 : cond0_0 i) (hc1 : ¬cond0_1 i) (x0 : Vec F S8x1024 .f32) (x1 : Vec F S1024x2048 .f32) (x2 : Vec F S1x2048 .f32) (x3 : Vec F S2048x15 .f32) (x4 : Vec F S1x15 .f32) :
    sout0_A_0 c i a1 h1 a2 h2 a3 h3 a4 h4 a5 h5 a6 h6 a7 h7 hc0 hc1 x0 x1 x2 x3 x4 = k0_pay2 x0 x1 k0_pay1 := by
  unfold sout0_A_0
  rw [View.read_writes_eq_canon _ _ _ (scover0_A_0 c i a1 h1 a2 h2 a3 h3 a4 h4 a5 h5 a6 h6 a7 h7 hc0 hc1 x0 x1 x2 x3 x4)]
  unfold kernelRun0_A
  dsimp only
  sl_unfold_words
  rw [View.canon_cons_unit_zero (S := S8x2048) hz, View.readCov_unit_zero (S := S8x2048) _ hz]
  simp only [View.readAt_eq_ld, h1.read_unread, h2.read_unread, View.ld_unit_zero (S := S8x1024) hz,
    View.ld_unit_zero (S := S1024x2048) hz]

/-- The last step writes, into the result block, the head applied to the finished accumulator. -/
theorem oC (c : Dev nD) (i : grid0.Coords) (a1 : Memref sig .tc .vmem S8x1024 .f32) (h1 : a1.IsWhole) (a2 : Memref sig .tc .vmem S1024x2048 .f32) (h2 : a2.IsWhole) (a3 : Memref sig .tc .vmem S1x2048 .f32) (h3 : a3.IsWhole) (a4 : Memref sig .tc .vmem S2048x15 .f32) (h4 : a4.IsWhole) (a5 : Memref sig .tc .vmem S1x15 .f32) (h5 : a5.IsWhole) (a6 : Memref sig .tc .vmem S8x15 .f32) (h6 : a6.IsWhole) (a7 : Memref sig .tc .vmem S8x2048 .f32) (h7 : a7.IsWhole) (hc0 : ¬cond0_0 i) (hc1 : cond0_1 i) (x0 : Vec F S8x1024 .f32) (x1 : Vec F S1024x2048 .f32) (x2 : Vec F S1x2048 .f32) (x3 : Vec F S2048x15 .f32) (x4 : Vec F S1x15 .f32) (xs0 : Vec F S8x2048 .f32) :
    out0_C_5 c i a1 h1 a2 h2 a3 h3 a4 h4 a5 h5 a6 h6 a7 h7 hc0 hc1 x0 x1 x2 x3 x4 xs0 = k0_pay3 (k0_pay2 x0 x1 xs0) x2 x3 x4 := by
  unfold out0_C_5
  rw [View.read_writes_eq_canon _ _ _ (cover0_C_5 c i a1 h1 a2 h2 a3 h3 a4 h4 a5 h5 a6 h6 a7 h7 hc0 hc1 x0 x1 x2 x3 x4 xs0)]
  unfold kernelRun0_C
  dsimp only
  sl_unfold_words
  rw [View.canon_unit_zero hz, View.readCov_unit_zero (S := S8x2048) _ hz]
  simp only [View.readAt_eq_ld, h1.read_unread, h2.read_unread, h3.read_unread, h4.read_unread, h5.read_unread, h7.read_unread,
    View.ld_unit_zero (S := S8x1024) hz, View.ld_unit_zero (S := S1024x2048) hz, View.ld_unit_zero (S := S8x2048) hz,
    View.ld_unit_zero (S := S1x2048) hz, View.ld_unit_zero (S := S2048x15) hz, View.ld_unit_zero (S := S1x15) hz]

variable (m : (ℓ : Loc nD τ sig) → Buf (Elt F) ℓ) (ρ : Dev nD → PrngReg)

/-- What step `n` leaves in the accumulator, over what the step before left (`acc`): the product of the step's two
    blocks added to `acc`, or to the cleared accumulator at the first step. -/
theorem scAt_eq (c : Dev nD) (n : ℕ) (hb : n < cfg0.N) (acc : Vec F S8x2048 .f32) :
    Value.scAt0_0 m c n hb acc
      = k0_pay2 (iblk m c 0 ⟨n, hb⟩) (iblk m c 1 ⟨n, hb⟩) (if n % 128 = 0 then k0_pay1 else acc) := by
  unfold Value.scAt0_0
  by_cases h0 : n % 128 = 0 <;> by_cases h1 : n % 128 = 127
  · exfalso; omega
  · rw [dif_pos h0, dif_neg h1, if_pos h0]
    exact sA c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) scM0_0 (Memref.isWhole_whole _) _ _ (iblk m c 0 ⟨n, hb⟩) (iblk m c 1 ⟨n, hb⟩) (iblk m c 2 ⟨n, hb⟩) (iblk m c 3 ⟨n, hb⟩) (iblk m c 4 ⟨n, hb⟩)
  · rw [dif_neg h0, dif_pos h1, if_neg h0]
    exact sC c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) scM0_0 (Memref.isWhole_whole _) _ _ (iblk m c 0 ⟨n, hb⟩) (iblk m c 1 ⟨n, hb⟩) (iblk m c 2 ⟨n, hb⟩) (iblk m c 3 ⟨n, hb⟩) (iblk m c 4 ⟨n, hb⟩) acc
  · rw [dif_neg h0, dif_neg h1, if_neg h0]
    exact sB c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) scM0_0 (Memref.isWhole_whole _) _ _ (iblk m c 0 ⟨n, hb⟩) (iblk m c 1 ⟨n, hb⟩) (iblk m c 2 ⟨n, hb⟩) (iblk m c 3 ⟨n, hb⟩) (iblk m c 4 ⟨n, hb⟩) acc

/-- At the last step, what is written back is the head applied to what the step leaves in the accumulator. -/
theorem flushC (c : Dev nD) (t : Fin cfg0.N) (h0 : ¬t.val % 128 = 0) (h1 : t.val % 128 = 127) :
    (dats m 0 c).flushed 5 t = (cfg0.win 5).cut (grid0.coords t)
      (k0_pay3 (outsAt0 m c t.val t.isLt).2 (iblk m c 2 t) (iblk m c 3 t) (iblk m c 4 t)) := by
  refine (Value.flushed5_C m c t h0 h1).trans (congrArg ((cfg0.win 5).cut (grid0.coords t)) ?_)
  refine (oC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (iblk m c 0 t) (iblk m c 1 t) (iblk m c 2 t) (iblk m c 3 t) (iblk m c 4 t) (outsAt0 m c (t.val - 1) (Nat.lt_of_le_of_lt (Nat.sub_le _ _) t.isLt)).2).trans ?_
  refine congrArg (fun a => k0_pay3 a (iblk m c 2 t) (iblk m c 3 t) (iblk m c 4 t)) ?_
  rw [outsAt0_C m c t h0 h1]
  dsimp only
  exact (sC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (iblk m c 0 t) (iblk m c 1 t) (iblk m c 2 t) (iblk m c 3 t) (iblk m c 4 t) (outsAt0 m c (t.val - 1) (Nat.lt_of_le_of_lt (Nat.sub_le _ _) t.isLt)).2).symm

/-- The last grid point. -/
abbrev tLast : Fin cfg0.N := ⟨127, by rw [show cfg0.N = 128 from N_0]; decide⟩

/-- The result: the head (bias, activation, second product, bias) applied to the finished accumulator. -/
def resK (c : Dev nD) : Buf (Elt F) ((c : Thread nD τ).loc main_v117) :=
  k0_pay3 (outsAt0 m c tLast.val tLast.isLt).2 (iblk m c 2 tLast) (iblk m c 3 tLast) (iblk m c 4 tLast)

/-- The one write-back, at the last point, writes it: the result's single block is the whole array. -/
theorem flushed_eq (c : Dev nD) (t : Fin cfg0.N) (hf : (cfg0.win 5).flush t = true) :
    (dats m 0 c).flushed 5 t = ((cfg0.win 5).blk t).view.read (Elt F) (resK m c) := by
  have hN : cfg0.N = 128 := N_0
  have h1 : t.val % 128 = 127 := (flush0_5 t).mp hf
  have h0 : ¬t.val % 128 = 0 := by omega
  have h127 : t.val = 127 := by have := t.isLt; omega
  rw [flushC m c t h0 h1]
  obtain rfl : t = tLast := Fin.ext h127
  have hz' : (fun a => win0_5.index tLast a * main_v117.ty.shape.size a) = fun _ => 0 := funext fun a => by fin_cases a <;> decide
  exact (Memref.read_access_unit_zero (Elt F) main_v117 hz' (fun a => by rw [congrFun hz' a]; simp) (resK m c)).symm

/-- So the result array ends holding it. -/
theorem final (c : Dev nD) : (dats m 0 c).arrAt 5 cfg0.N = resK m c :=
  (dats m 0 c).arrAt_eq_of_cover 5 (resK m c) (flushed_eq m c) fun i =>
    ⟨tLast, (flush0_5 tLast).mpr rfl, by
      show i ∈ ((View.whole main_v117).slice (win0_5.rect tLast)).set
      rw [View.set_slice_whole, Rect.mem_set_unit]
      intro a
      have h0 : (i 0 : Nat) < 8 := (i 0).isLt
      have h1 : (i 1 : Nat) < 15 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 8 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 15 from by decide +kernel]; omega⟩
/-- The run, read: the result array at `resK`, the arguments unchanged. -/
theorem run : θ_run defs (onTc (τ := τ) (main (F := F))) ⟨m, fun _ => 0, ρ⟩ fun r => ∀ c : Dev nD,
      r.2.mem ((c : Thread nD τ).loc main_v117) = resK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.KValue
end
-- ==== Proof.RefRun.lean ====
/-
  The reference program's run. @main is a straight line of host tensor operations once each function call is
  replaced by the callee's operations over the call's own buffers: `selu` calls `elu`, which calls the two
  selects `_where_0` and `_where_1`, so one `selu` call is nineteen operations; `_where` is three. The line is
  listed here in program order (`ops`), @main is shown to be that line (`main_eq`), every operation touches
  TensorCore buffers only (`ops_sub`), and so every fair execution ends with each buffer at the fold of the
  operations over the launch contents (`run_main`).
-/
import proofs.«154179_j72851235275292_1_alg».proof.ReferenceIdeal
import proofs.«154179_j72851235275292_1_alg».proof.Proof.Gen.ReferenceIdeal
import Idealize.ShloMosaic.Lib.StableHlo.Run

noncomputable section

namespace Cert.ReferenceIdeal.RefRun

open Cert.ReferenceIdeal Idealize.ShloMosaic Idealize.ShloMosaic.StableHlo Idealize.ShloMosaic.TcCoe Idealize.SL.Sem
-- the program's side conditions, proved in the generated module
open Cert.ReferenceIdeal.Gen

variable {F : FTy → Type} [FloatOps F]

/-- @main's operations in program order, the calls unfolded. The first `_where(m, r, 0)` is three operations over
    `main_call0`'s buffers (the scalar converted to its own type, its broadcast, the select); `selu(x)` over
    `main_call1` is nineteen: the constant 1.67326319, then `elu(x, ·)` over `main_call1.call0` (two zero constants
    each broadcast and compared with `x`, a third zero, `_where_0` over `.call0` selecting zero where `x > 0` and `x`
    elsewhere, `expm1` of that, the scale converted, broadcast and multiplied in, `_where_1` over `.call1` selecting
    `x` where `x > 0` and the scaled value elsewhere), then the constant 1.05070102, its broadcast and the product.
    The program then makes the same two calls again over `main_call2` and `main_call3`, and `selu_2` is the same
    nineteen at shape 8 × 2048 over `main_call4`. Around them are @main's own 125 operations. -/
abbrev ops : List (HloOp τ sig (Elt F)) :=
  [ unary main_arg1 main_v0 ((extractStridedSlice S1x524288 ![0, 0] · slices_S2x524288_S1x524288_0_0) : (⟨S2x524288, .i32⟩ : BufTy).Contents (Elt F) → (⟨S1x524288, .i32⟩ : BufTy).Contents (Elt F)),
    reshape main_v0 main_v1 rfl shapeCasts_S1x524288_S524288,
    unary main_arg1 main_v2 ((extractStridedSlice S1x524288 ![1, 0] · slices_S2x524288_S1x524288_1_0) : (⟨S2x524288, .i32⟩ : BufTy).Contents (Elt F) → (⟨S1x524288, .i32⟩ : BufTy).Contents (Elt F)),
    reshape main_v2 main_v3 rfl shapeCasts_S1x524288_S524288,
    binary main_arg0 main_arg2 main_v4 ((fun l r => Host.dotGeneral dot_S16384x4_S4x64_S16384x64_1_0_0_1_n_n none l r) : (⟨S16384x4, .f32⟩ : BufTy).Contents (Elt F) → (⟨S4x64, .f32⟩ : BufTy).Contents (Elt F) → (⟨S16384x64, .f32⟩ : BufTy).Contents (Elt F)),
    nullary main_v5 (iotaInDim S16384 32 0),
    binary main_v1 main_v5 main_v6 ((fun a b => concatenate S540672 0 [⟨S524288, a⟩, ⟨S16384, b⟩] concatenates_S524288_S16384_S540672_d0) : (⟨S524288, .i32⟩ : BufTy).Contents (Elt F) → (⟨S16384, .i32⟩ : BufTy).Contents (Elt F) → (⟨S540672, .i32⟩ : BufTy).Contents (Elt F)),
    binary main_v3 main_v5 main_v7 ((fun a b => concatenate S540672 0 [⟨S524288, a⟩, ⟨S16384, b⟩] concatenates_S524288_S16384_S540672_d0) : (⟨S524288, .i32⟩ : BufTy).Contents (Elt F) → (⟨S16384, .i32⟩ : BufTy).Contents (Elt F) → (⟨S540672, .i32⟩ : BufTy).Contents (Elt F)),
    nullary main_cst (constant S_ .f32 0x3F800000#32),
    unary main_cst main_v8 (broadcastInDim S540672 ![] bcast_S_S540672 : (⟨S_, .f32⟩ : BufTy).Contents (Elt F) → (⟨S540672, .f32⟩ : BufTy).Contents (Elt F)),
    nullary main_cst_0 (constant S_ .f32 0x00000000#32),
    unary main_cst_0 main_v9 (broadcastInDim S16384 ![] bcast_S_S16384 : (⟨S_, .f32⟩ : BufTy).Contents (Elt F) → (⟨S16384, .f32⟩ : BufTy).Contents (Elt F)),
    unary main_v7 main_v10 (broadcastInDim S540672x1 ![0] bcast_S540672_S540672x1_0 : (⟨S540672, .i32⟩ : BufTy).Contents (Elt F) → (⟨S540672x1, .i32⟩ : BufTy).Contents (Elt F)),
    ternary main_v9 main_v10 main_v8 main_v11 ((fun x i u => Host.scatterAdd scatter_S16384_S540672x1_S540672_n_0_0_1 x i u) : (⟨S16384, .f32⟩ : BufTy).Contents (Elt F) → (⟨S540672x1, .i32⟩ : BufTy).Contents (Elt F) → (⟨S540672, .f32⟩ : BufTy).Contents (Elt F) → (⟨S16384, .f32⟩ : BufTy).Contents (Elt F)),
    nullary main_cst_1 (constant S_ .f32 0x00000000#32),
    unary main_cst_1 main_v12 (broadcastInDim S16384 ![] bcast_S_S16384 : (⟨S_, .f32⟩ : BufTy).Contents (Elt F) → (⟨S16384, .f32⟩ : BufTy).Contents (Elt F)),
    binary main_v11 main_v12 main_v13 (cmpf .ogt : (⟨S16384, .f32⟩ : BufTy).Contents (Elt F) → (⟨S16384, .f32⟩ : BufTy).Contents (Elt F) → (⟨S16384, .i1⟩ : BufTy).Contents (Elt F)),
    nullary main_cst_2 (constant S_ .f32 0x2B8CBCCC#32),
    unary main_cst_2 main_v14 (broadcastInDim S16384 ![] bcast_S_S16384 : (⟨S_, .f32⟩ : BufTy).Contents (Elt F) → (⟨S16384, .f32⟩ : BufTy).Contents (Elt F)),
    binary main_v11 main_v14 main_v15 (maximumf : (⟨S16384, .f32⟩ : BufTy).Contents (Elt F) → (⟨S16384, .f32⟩ : BufTy).Contents (Elt F) → (⟨S16384, .f32⟩ : BufTy).Contents (Elt F)),
    unary main_v15 main_v16 (Host.rsqrt : (⟨S16384, .f32⟩ : BufTy).Contents (Elt F) → (⟨S16384, .f32⟩ : BufTy).Contents (Elt F)),
    nullary main_cst_3 (constant S_ .f32 0x00000000#32),
    TRef.unary (.of main_cst_3) main_call0.v0 id,
    TRef.unary main_call0.v0 main_call0.v1 (broadcastInDim S16384 ![] bcast_S_S16384),
    TRef.ternary (.of main_v13) (.of main_v16) main_call0.v1 main_call0.v2 select,
    nullary main_c (constantI S_ 32 0#32),
    unary main_c main_v18 (broadcastInDim S540672 ![] bcast_S_S540672 : (⟨S_, .i32⟩ : BufTy).Contents (Elt F) → (⟨S540672, .i32⟩ : BufTy).Contents (Elt F)),
    binary main_v6 main_v18 main_v19 (cmpi .slt : (⟨S540672, .i32⟩ : BufTy).Contents (Elt F) → (⟨S540672, .i32⟩ : BufTy).Contents (Elt F) → (⟨S540672, .i1⟩ : BufTy).Contents (Elt F)),
    nullary main_c_4 (constantI S_ 32 16384#32),
    unary main_c_4 main_v20 (broadcastInDim S540672 ![] bcast_S_S540672 : (⟨S_, .i32⟩ : BufTy).Contents (Elt F) → (⟨S540672, .i32⟩ : BufTy).Contents (Elt F)),
    binary main_v6 main_v20 main_v21 (addi : (⟨S540672, .i32⟩ : BufTy).Contents (Elt F) → (⟨S540672, .i32⟩ : BufTy).Contents (Elt F) → (⟨S540672, .i32⟩ : BufTy).Contents (Elt F)),
    ternary main_v19 main_v21 main_v6 main_v22 (select : (⟨S540672, .i1⟩ : BufTy).Contents (Elt F) → (⟨S540672, .i32⟩ : BufTy).Contents (Elt F) → (⟨S540672, .i32⟩ : BufTy).Contents (Elt F) → (⟨S540672, .i32⟩ : BufTy).Contents (Elt F)),
    unary main_v22 main_v23 (broadcastInDim S540672x1 ![0] bcast_S540672_S540672x1_0 : (⟨S540672, .i32⟩ : BufTy).Contents (Elt F) → (⟨S540672x1, .i32⟩ : BufTy).Contents (Elt F)),
    binary main_v17 main_v23 main_v24 ((fun x i => Host.gather gather_S16384_S540672x1_S540672_n_0_n_n_0_1_1 x i) : (⟨S16384, .f32⟩ : BufTy).Contents (Elt F) → (⟨S540672x1, .i32⟩ : BufTy).Contents (Elt F) → (⟨S540672, .f32⟩ : BufTy).Contents (Elt F)),
    nullary main_c_5 (constantI S_ 32 0#32),
    unary main_c_5 main_v25 (broadcastInDim S540672 ![] bcast_S_S540672 : (⟨S_, .i32⟩ : BufTy).Contents (Elt F) → (⟨S540672, .i32⟩ : BufTy).Contents (Elt F)),
    binary main_v7 main_v25 main_v26 (cmpi .slt : (⟨S540672, .i32⟩ : BufTy).Contents (Elt F) → (⟨S540672, .i32⟩ : BufTy).Contents (Elt F) → (⟨S540672, .i1⟩ : BufTy).Contents (Elt F)),
    nullary main_c_6 (constantI S_ 32 16384#32),
    unary main_c_6 main_v27 (broadcastInDim S540672 ![] bcast_S_S540672 : (⟨S_, .i32⟩ : BufTy).Contents (Elt F) → (⟨S540672, .i32⟩ : BufTy).Contents (Elt F)),
    binary main_v7 main_v27 main_v28 (addi : (⟨S540672, .i32⟩ : BufTy).Contents (Elt F) → (⟨S540672, .i32⟩ : BufTy).Contents (Elt F) → (⟨S540672, .i32⟩ : BufTy).Contents (Elt F)),
    ternary main_v26 main_v28 main_v7 main_v29 (select : (⟨S540672, .i1⟩ : BufTy).Contents (Elt F) → (⟨S540672, .i32⟩ : BufTy).Contents (Elt F) → (⟨S540672, .i32⟩ : BufTy).Contents (Elt F) → (⟨S540672, .i32⟩ : BufTy).Contents (Elt F)),
    unary main_v29 main_v30 (broadcastInDim S540672x1 ![0] bcast_S540672_S540672x1_0 : (⟨S540672, .i32⟩ : BufTy).Contents (Elt F) → (⟨S540672x1, .i32⟩ : BufTy).Contents (Elt F)),
    binary main_v17 main_v30 main_v31 ((fun x i => Host.gather gather_S16384_S540672x1_S540672_n_0_n_n_0_1_1 x i) : (⟨S16384, .f32⟩ : BufTy).Contents (Elt F) → (⟨S540672x1, .i32⟩ : BufTy).Contents (Elt F) → (⟨S540672, .f32⟩ : BufTy).Contents (Elt F)),
    binary main_v24 main_v31 main_v32 (mulf : (⟨S540672, .f32⟩ : BufTy).Contents (Elt F) → (⟨S540672, .f32⟩ : BufTy).Contents (Elt F) → (⟨S540672, .f32⟩ : BufTy).Contents (Elt F)),
    nullary main_c_7 (constantI S_ 32 0#32),
    unary main_c_7 main_v33 (broadcastInDim S540672 ![] bcast_S_S540672 : (⟨S_, .i32⟩ : BufTy).Contents (Elt F) → (⟨S540672, .i32⟩ : BufTy).Contents (Elt F)),
    binary main_v6 main_v33 main_v34 (cmpi .slt : (⟨S540672, .i32⟩ : BufTy).Contents (Elt F) → (⟨S540672, .i32⟩ : BufTy).Contents (Elt F) → (⟨S540672, .i1⟩ : BufTy).Contents (Elt F)),
    nullary main_c_8 (constantI S_ 32 16384#32),
    unary main_c_8 main_v35 (broadcastInDim S540672 ![] bcast_S_S540672 : (⟨S_, .i32⟩ : BufTy).Contents (Elt F) → (⟨S540672, .i32⟩ : BufTy).Contents (Elt F)),
    binary main_v6 main_v35 main_v36 (addi : (⟨S540672, .i32⟩ : BufTy).Contents (Elt F) → (⟨S540672, .i32⟩ : BufTy).Contents (Elt F) → (⟨S540672, .i32⟩ : BufTy).Contents (Elt F)),
    ternary main_v34 main_v36 main_v6 main_v37 (select : (⟨S540672, .i1⟩ : BufTy).Contents (Elt F) → (⟨S540672, .i32⟩ : BufTy).Contents (Elt F) → (⟨S540672, .i32⟩ : BufTy).Contents (Elt F) → (⟨S540672, .i32⟩ : BufTy).Contents (Elt F)),
    unary main_v37 main_v38 (broadcastInDim S540672x1 ![0] bcast_S540672_S540672x1_0 : (⟨S540672, .i32⟩ : BufTy).Contents (Elt F) → (⟨S540672x1, .i32⟩ : BufTy).Contents (Elt F)),
    binary main_v4 main_v38 main_v39 ((fun x i => Host.gather gather_S16384x64_S540672x1_S540672x64_1_0_n_n_0_1_164 x i) : (⟨S16384x64, .f32⟩ : BufTy).Contents (Elt F) → (⟨S540672x1, .i32⟩ : BufTy).Contents (Elt F) → (⟨S540672x64, .f32⟩ : BufTy).Contents (Elt F)),
    unary main_v32 main_v40 (broadcastInDim S540672x1 ![0] bcast_S540672_S540672x1_0 : (⟨S540672, .f32⟩ : BufTy).Contents (Elt F) → (⟨S540672x1, .f32⟩ : BufTy).Contents (Elt F)),
    unary main_v40 main_v41 (broadcastInDim S540672x64 ![0, 1] bcast_S540672x1_S540672x64_0_1 : (⟨S540672x1, .f32⟩ : BufTy).Contents (Elt F) → (⟨S540672x64, .f32⟩ : BufTy).Contents (Elt F)),
    binary main_v39 main_v41 main_v42 (mulf : (⟨S540672x64, .f32⟩ : BufTy).Contents (Elt F) → (⟨S540672x64, .f32⟩ : BufTy).Contents (Elt F) → (⟨S540672x64, .f32⟩ : BufTy).Contents (Elt F)),
    nullary main_cst_9 (constant S_ .f32 0x00000000#32),
    unary main_cst_9 main_v43 (broadcastInDim S16384x64 ![] bcast_S_S16384x64 : (⟨S_, .f32⟩ : BufTy).Contents (Elt F) → (⟨S16384x64, .f32⟩ : BufTy).Contents (Elt F)),
    unary main_v7 main_v44 (broadcastInDim S540672x1 ![0] bcast_S540672_S540672x1_0 : (⟨S540672, .i32⟩ : BufTy).Contents (Elt F) → (⟨S540672x1, .i32⟩ : BufTy).Contents (Elt F)),
    ternary main_v43 main_v44 main_v42 main_v45 ((fun x i u => Host.scatterAdd scatter_S16384x64_S540672x1_S540672x64_1_0_0_1 x i u) : (⟨S16384x64, .f32⟩ : BufTy).Contents (Elt F) → (⟨S540672x1, .i32⟩ : BufTy).Contents (Elt F) → (⟨S540672x64, .f32⟩ : BufTy).Contents (Elt F) → (⟨S16384x64, .f32⟩ : BufTy).Contents (Elt F)),
    unary main_arg3 main_v46 (broadcastInDim S1x64 ![1] bcast_S64_S1x64_1 : (⟨S64, .f32⟩ : BufTy).Contents (Elt F) → (⟨S1x64, .f32⟩ : BufTy).Contents (Elt F)),
    unary main_v46 main_v47 (broadcastInDim S16384x64 ![0, 1] bcast_S1x64_S16384x64_0_1 : (⟨S1x64, .f32⟩ : BufTy).Contents (Elt F) → (⟨S16384x64, .f32⟩ : BufTy).Contents (Elt F)),
    binary main_v45 main_v47 main_v48 (addf : (⟨S16384x64, .f32⟩ : BufTy).Contents (Elt F) → (⟨S16384x64, .f32⟩ : BufTy).Contents (Elt F) → (⟨S16384x64, .f32⟩ : BufTy).Contents (Elt F)),
    TRef.nullary main_call1.cst (constant S_ .f32 0x3FD62D7D#32),
    TRef.nullary main_call1.call0.cst (constant S_ .f32 0x00000000#32),
    TRef.unary main_call1.call0.cst main_call1.call0.v0 (broadcastInDim S16384x64 ![] bcast_S_S16384x64),
    TRef.binary (.of main_v48) main_call1.call0.v0 main_call1.call0.v1 (cmpf .ogt),
    TRef.nullary main_call1.call0.cst_0 (constant S_ .f32 0x00000000#32),
    TRef.unary main_call1.call0.cst_0 main_call1.call0.v2 (broadcastInDim S16384x64 ![] bcast_S_S16384x64),
    TRef.binary (.of main_v48) main_call1.call0.v2 main_call1.call0.v3 (cmpf .ogt),
    TRef.nullary main_call1.call0.cst_1 (constant S_ .f32 0x00000000#32),
    TRef.unary main_call1.call0.cst_1 main_call1.call0.call0.v0 id,
    TRef.unary main_call1.call0.call0.v0 main_call1.call0.call0.v1 (broadcastInDim S16384x64 ![] bcast_S_S16384x64),
    TRef.ternary main_call1.call0.v3 main_call1.call0.call0.v1 (.of main_v48) main_call1.call0.call0.v2 select,
    TRef.unary main_call1.call0.call0.v2 main_call1.call0.v5 Host.expm1,
    TRef.unary main_call1.cst main_call1.call0.v6 id,
    TRef.unary main_call1.call0.v6 main_call1.call0.v7 (broadcastInDim S16384x64 ![] bcast_S_S16384x64),
    TRef.binary main_call1.call0.v7 main_call1.call0.v5 main_call1.call0.v8 mulf,
    TRef.ternary main_call1.call0.v1 (.of main_v48) main_call1.call0.v8 main_call1.call0.call1.v0 select,
    TRef.nullary main_call1.cst_0 (constant S_ .f32 0x3F867D5F#32),
    TRef.unary main_call1.cst_0 main_call1.v1 (broadcastInDim S16384x64 ![] bcast_S_S16384x64),
    TRef.binary main_call1.v1 main_call1.call0.call1.v0 main_call1.v2 mulf,
    binary main_v49 main_arg4 main_v50 ((fun l r => Host.dotGeneral dot_S16384x64_S64x64_S16384x64_1_0_0_1_n_n none l r) : (⟨S16384x64, .f32⟩ : BufTy).Contents (Elt F) → (⟨S64x64, .f32⟩ : BufTy).Contents (Elt F) → (⟨S16384x64, .f32⟩ : BufTy).Contents (Elt F)),
    nullary main_v51 (iotaInDim S16384 32 0),
    binary main_v1 main_v51 main_v52 ((fun a b => concatenate S540672 0 [⟨S524288, a⟩, ⟨S16384, b⟩] concatenates_S524288_S16384_S540672_d0) : (⟨S524288, .i32⟩ : BufTy).Contents (Elt F) → (⟨S16384, .i32⟩ : BufTy).Contents (Elt F) → (⟨S540672, .i32⟩ : BufTy).Contents (Elt F)),
    binary main_v3 main_v51 main_v53 ((fun a b => concatenate S540672 0 [⟨S524288, a⟩, ⟨S16384, b⟩] concatenates_S524288_S16384_S540672_d0) : (⟨S524288, .i32⟩ : BufTy).Contents (Elt F) → (⟨S16384, .i32⟩ : BufTy).Contents (Elt F) → (⟨S540672, .i32⟩ : BufTy).Contents (Elt F)),
    nullary main_cst_10 (constant S_ .f32 0x3F800000#32),
    unary main_cst_10 main_v54 (broadcastInDim S540672 ![] bcast_S_S540672 : (⟨S_, .f32⟩ : BufTy).Contents (Elt F) → (⟨S540672, .f32⟩ : BufTy).Contents (Elt F)),
    nullary main_cst_11 (constant S_ .f32 0x00000000#32),
    unary main_cst_11 main_v55 (broadcastInDim S16384 ![] bcast_S_S16384 : (⟨S_, .f32⟩ : BufTy).Contents (Elt F) → (⟨S16384, .f32⟩ : BufTy).Contents (Elt F)),
    unary main_v53 main_v56 (broadcastInDim S540672x1 ![0] bcast_S540672_S540672x1_0 : (⟨S540672, .i32⟩ : BufTy).Contents (Elt F) → (⟨S540672x1, .i32⟩ : BufTy).Contents (Elt F)),
    ternary main_v55 main_v56 main_v54 main_v57 ((fun x i u => Host.scatterAdd scatter_S16384_S540672x1_S540672_n_0_0_1 x i u) : (⟨S16384, .f32⟩ : BufTy).Contents (Elt F) → (⟨S540672x1, .i32⟩ : BufTy).Contents (Elt F) → (⟨S540672, .f32⟩ : BufTy).Contents (Elt F) → (⟨S16384, .f32⟩ : BufTy).Contents (Elt F)),
    nullary main_cst_12 (constant S_ .f32 0x00000000#32),
    unary main_cst_12 main_v58 (broadcastInDim S16384 ![] bcast_S_S16384 : (⟨S_, .f32⟩ : BufTy).Contents (Elt F) → (⟨S16384, .f32⟩ : BufTy).Contents (Elt F)),
    binary main_v57 main_v58 main_v59 (cmpf .ogt : (⟨S16384, .f32⟩ : BufTy).Contents (Elt F) → (⟨S16384, .f32⟩ : BufTy).Contents (Elt F) → (⟨S16384, .i1⟩ : BufTy).Contents (Elt F)),
    nullary main_cst_13 (constant S_ .f32 0x2B8CBCCC#32),
    unary main_cst_13 main_v60 (broadcastInDim S16384 ![] bcast_S_S16384 : (⟨S_, .f32⟩ : BufTy).Contents (Elt F) → (⟨S16384, .f32⟩ : BufTy).Contents (Elt F)),
    binary main_v57 main_v60 main_v61 (maximumf : (⟨S16384, .f32⟩ : BufTy).Contents (Elt F) → (⟨S16384, .f32⟩ : BufTy).Contents (Elt F) → (⟨S16384, .f32⟩ : BufTy).Contents (Elt F)),
    unary main_v61 main_v62 (Host.rsqrt : (⟨S16384, .f32⟩ : BufTy).Contents (Elt F) → (⟨S16384, .f32⟩ : BufTy).Contents (Elt F)),
    nullary main_cst_14 (constant S_ .f32 0x00000000#32),
    TRef.unary (.of main_cst_14) main_call2.v0 id,
    TRef.unary main_call2.v0 main_call2.v1 (broadcastInDim S16384 ![] bcast_S_S16384),
    TRef.ternary (.of main_v59) (.of main_v62) main_call2.v1 main_call2.v2 select,
    nullary main_c_15 (constantI S_ 32 0#32),
    unary main_c_15 main_v64 (broadcastInDim S540672 ![] bcast_S_S540672 : (⟨S_, .i32⟩ : BufTy).Contents (Elt F) → (⟨S540672, .i32⟩ : BufTy).Contents (Elt F)),
    binary main_v52 main_v64 main_v65 (cmpi .slt : (⟨S540672, .i32⟩ : BufTy).Contents (Elt F) → (⟨S540672, .i32⟩ : BufTy).Contents (Elt F) → (⟨S540672, .i1⟩ : BufTy).Contents (Elt F)),
    nullary main_c_16 (constantI S_ 32 16384#32),
    unary main_c_16 main_v66 (broadcastInDim S540672 ![] bcast_S_S540672 : (⟨S_, .i32⟩ : BufTy).Contents (Elt F) → (⟨S540672, .i32⟩ : BufTy).Contents (Elt F)),
    binary main_v52 main_v66 main_v67 (addi : (⟨S540672, .i32⟩ : BufTy).Contents (Elt F) → (⟨S540672, .i32⟩ : BufTy).Contents (Elt F) → (⟨S540672, .i32⟩ : BufTy).Contents (Elt F)),
    ternary main_v65 main_v67 main_v52 main_v68 (select : (⟨S540672, .i1⟩ : BufTy).Contents (Elt F) → (⟨S540672, .i32⟩ : BufTy).Contents (Elt F) → (⟨S540672, .i32⟩ : BufTy).Contents (Elt F) → (⟨S540672, .i32⟩ : BufTy).Contents (Elt F)),
    unary main_v68 main_v69 (broadcastInDim S540672x1 ![0] bcast_S540672_S540672x1_0 : (⟨S540672, .i32⟩ : BufTy).Contents (Elt F) → (⟨S540672x1, .i32⟩ : BufTy).Contents (Elt F)),
    binary main_v63 main_v69 main_v70 ((fun x i => Host.gather gather_S16384_S540672x1_S540672_n_0_n_n_0_1_1 x i) : (⟨S16384, .f32⟩ : BufTy).Contents (Elt F) → (⟨S540672x1, .i32⟩ : BufTy).Contents (Elt F) → (⟨S540672, .f32⟩ : BufTy).Contents (Elt F)),
    nullary main_c_17 (constantI S_ 32 0#32),
    unary main_c_17 main_v71 (broadcastInDim S540672 ![] bcast_S_S540672 : (⟨S_, .i32⟩ : BufTy).Contents (Elt F) → (⟨S540672, .i32⟩ : BufTy).Contents (Elt F)),
    binary main_v53 main_v71 main_v72 (cmpi .slt : (⟨S540672, .i32⟩ : BufTy).Contents (Elt F) → (⟨S540672, .i32⟩ : BufTy).Contents (Elt F) → (⟨S540672, .i1⟩ : BufTy).Contents (Elt F)),
    nullary main_c_18 (constantI S_ 32 16384#32),
    unary main_c_18 main_v73 (broadcastInDim S540672 ![] bcast_S_S540672 : (⟨S_, .i32⟩ : BufTy).Contents (Elt F) → (⟨S540672, .i32⟩ : BufTy).Contents (Elt F)),
    binary main_v53 main_v73 main_v74 (addi : (⟨S540672, .i32⟩ : BufTy).Contents (Elt F) → (⟨S540672, .i32⟩ : BufTy).Contents (Elt F) → (⟨S540672, .i32⟩ : BufTy).Contents (Elt F)),
    ternary main_v72 main_v74 main_v53 main_v75 (select : (⟨S540672, .i1⟩ : BufTy).Contents (Elt F) → (⟨S540672, .i32⟩ : BufTy).Contents (Elt F) → (⟨S540672, .i32⟩ : BufTy).Contents (Elt F) → (⟨S540672, .i32⟩ : BufTy).Contents (Elt F)),
    unary main_v75 main_v76 (broadcastInDim S540672x1 ![0] bcast_S540672_S540672x1_0 : (⟨S540672, .i32⟩ : BufTy).Contents (Elt F) → (⟨S540672x1, .i32⟩ : BufTy).Contents (Elt F)),
    binary main_v63 main_v76 main_v77 ((fun x i => Host.gather gather_S16384_S540672x1_S540672_n_0_n_n_0_1_1 x i) : (⟨S16384, .f32⟩ : BufTy).Contents (Elt F) → (⟨S540672x1, .i32⟩ : BufTy).Contents (Elt F) → (⟨S540672, .f32⟩ : BufTy).Contents (Elt F)),
    binary main_v70 main_v77 main_v78 (mulf : (⟨S540672, .f32⟩ : BufTy).Contents (Elt F) → (⟨S540672, .f32⟩ : BufTy).Contents (Elt F) → (⟨S540672, .f32⟩ : BufTy).Contents (Elt F)),
    nullary main_c_19 (constantI S_ 32 0#32),
    unary main_c_19 main_v79 (broadcastInDim S540672 ![] bcast_S_S540672 : (⟨S_, .i32⟩ : BufTy).Contents (Elt F) → (⟨S540672, .i32⟩ : BufTy).Contents (Elt F)),
    binary main_v52 main_v79 main_v80 (cmpi .slt : (⟨S540672, .i32⟩ : BufTy).Contents (Elt F) → (⟨S540672, .i32⟩ : BufTy).Contents (Elt F) → (⟨S540672, .i1⟩ : BufTy).Contents (Elt F)),
    nullary main_c_20 (constantI S_ 32 16384#32),
    unary main_c_20 main_v81 (broadcastInDim S540672 ![] bcast_S_S540672 : (⟨S_, .i32⟩ : BufTy).Contents (Elt F) → (⟨S540672, .i32⟩ : BufTy).Contents (Elt F)),
    binary main_v52 main_v81 main_v82 (addi : (⟨S540672, .i32⟩ : BufTy).Contents (Elt F) → (⟨S540672, .i32⟩ : BufTy).Contents (Elt F) → (⟨S540672, .i32⟩ : BufTy).Contents (Elt F)),
    ternary main_v80 main_v82 main_v52 main_v83 (select : (⟨S540672, .i1⟩ : BufTy).Contents (Elt F) → (⟨S540672, .i32⟩ : BufTy).Contents (Elt F) → (⟨S540672, .i32⟩ : BufTy).Contents (Elt F) → (⟨S540672, .i32⟩ : BufTy).Contents (Elt F)),
    unary main_v83 main_v84 (broadcastInDim S540672x1 ![0] bcast_S540672_S540672x1_0 : (⟨S540672, .i32⟩ : BufTy).Contents (Elt F) → (⟨S540672x1, .i32⟩ : BufTy).Contents (Elt F)),
    binary main_v50 main_v84 main_v85 ((fun x i => Host.gather gather_S16384x64_S540672x1_S540672x64_1_0_n_n_0_1_164 x i) : (⟨S16384x64, .f32⟩ : BufTy).Contents (Elt F) → (⟨S540672x1, .i32⟩ : BufTy).Contents (Elt F) → (⟨S540672x64, .f32⟩ : BufTy).Contents (Elt F)),
    unary main_v78 main_v86 (broadcastInDim S540672x1 ![0] bcast_S540672_S540672x1_0 : (⟨S540672, .f32⟩ : BufTy).Contents (Elt F) → (⟨S540672x1, .f32⟩ : BufTy).Contents (Elt F)),
    unary main_v86 main_v87 (broadcastInDim S540672x64 ![0, 1] bcast_S540672x1_S540672x64_0_1 : (⟨S540672x1, .f32⟩ : BufTy).Contents (Elt F) → (⟨S540672x64, .f32⟩ : BufTy).Contents (Elt F)),
    binary main_v85 main_v87 main_v88 (mulf : (⟨S540672x64, .f32⟩ : BufTy).Contents (Elt F) → (⟨S540672x64, .f32⟩ : BufTy).Contents (Elt F) → (⟨S540672x64, .f32⟩ : BufTy).Contents (Elt F)),
    nullary main_cst_21 (constant S_ .f32 0x00000000#32),
    unary main_cst_21 main_v89 (broadcastInDim S16384x64 ![] bcast_S_S16384x64 : (⟨S_, .f32⟩ : BufTy).Contents (Elt F) → (⟨S16384x64, .f32⟩ : BufTy).Contents (Elt F)),
    unary main_v53 main_v90 (broadcastInDim S540672x1 ![0] bcast_S540672_S540672x1_0 : (⟨S540672, .i32⟩ : BufTy).Contents (Elt F) → (⟨S540672x1, .i32⟩ : BufTy).Contents (Elt F)),
    ternary main_v89 main_v90 main_v88 main_v91 ((fun x i u => Host.scatterAdd scatter_S16384x64_S540672x1_S540672x64_1_0_0_1 x i u) : (⟨S16384x64, .f32⟩ : BufTy).Contents (Elt F) → (⟨S540672x1, .i32⟩ : BufTy).Contents (Elt F) → (⟨S540672x64, .f32⟩ : BufTy).Contents (Elt F) → (⟨S16384x64, .f32⟩ : BufTy).Contents (Elt F)),
    unary main_arg5 main_v92 (broadcastInDim S1x64 ![1] bcast_S64_S1x64_1 : (⟨S64, .f32⟩ : BufTy).Contents (Elt F) → (⟨S1x64, .f32⟩ : BufTy).Contents (Elt F)),
    unary main_v92 main_v93 (broadcastInDim S16384x64 ![0, 1] bcast_S1x64_S16384x64_0_1 : (⟨S1x64, .f32⟩ : BufTy).Contents (Elt F) → (⟨S16384x64, .f32⟩ : BufTy).Contents (Elt F)),
    binary main_v91 main_v93 main_v94 (addf : (⟨S16384x64, .f32⟩ : BufTy).Contents (Elt F) → (⟨S16384x64, .f32⟩ : BufTy).Contents (Elt F) → (⟨S16384x64, .f32⟩ : BufTy).Contents (Elt F)),
    TRef.nullary main_call3.cst (constant S_ .f32 0x3FD62D7D#32),
    TRef.nullary main_call3.call0.cst (constant S_ .f32 0x00000000#32),
    TRef.unary main_call3.call0.cst main_call3.call0.v0 (broadcastInDim S16384x64 ![] bcast_S_S16384x64),
    TRef.binary (.of main_v94) main_call3.call0.v0 main_call3.call0.v1 (cmpf .ogt),
    TRef.nullary main_call3.call0.cst_0 (constant S_ .f32 0x00000000#32),
    TRef.unary main_call3.call0.cst_0 main_call3.call0.v2 (broadcastInDim S16384x64 ![] bcast_S_S16384x64),
    TRef.binary (.of main_v94) main_call3.call0.v2 main_call3.call0.v3 (cmpf .ogt),
    TRef.nullary main_call3.call0.cst_1 (constant S_ .f32 0x00000000#32),
    TRef.unary main_call3.call0.cst_1 main_call3.call0.call0.v0 id,
    TRef.unary main_call3.call0.call0.v0 main_call3.call0.call0.v1 (broadcastInDim S16384x64 ![] bcast_S_S16384x64),
    TRef.ternary main_call3.call0.v3 main_call3.call0.call0.v1 (.of main_v94) main_call3.call0.call0.v2 select,
    TRef.unary main_call3.call0.call0.v2 main_call3.call0.v5 Host.expm1,
    TRef.unary main_call3.cst main_call3.call0.v6 id,
    TRef.unary main_call3.call0.v6 main_call3.call0.v7 (broadcastInDim S16384x64 ![] bcast_S_S16384x64),
    TRef.binary main_call3.call0.v7 main_call3.call0.v5 main_call3.call0.v8 mulf,
    TRef.ternary main_call3.call0.v1 (.of main_v94) main_call3.call0.v8 main_call3.call0.call1.v0 select,
    TRef.nullary main_call3.cst_0 (constant S_ .f32 0x3F867D5F#32),
    TRef.unary main_call3.cst_0 main_call3.v1 (broadcastInDim S16384x64 ![] bcast_S_S16384x64),
    TRef.binary main_call3.v1 main_call3.call0.call1.v0 main_call3.v2 mulf,
    reshape main_v95 main_v96 rfl shapeCasts_S16384x64_S8x131072,
    binary main_v96 main_arg6 main_v97 ((fun l r => Host.dotGeneral dot_S8x131072_S131072x2048_S8x2048_1_0_0_1_n_n none l r) : (⟨S8x131072, .f32⟩ : BufTy).Contents (Elt F) → (⟨S131072x2048, .f32⟩ : BufTy).Contents (Elt F) → (⟨S8x2048, .f32⟩ : BufTy).Contents (Elt F)),
    unary main_arg7 main_v98 (broadcastInDim S1x2048 ![1] bcast_S2048_S1x2048_1 : (⟨S2048, .f32⟩ : BufTy).Contents (Elt F) → (⟨S1x2048, .f32⟩ : BufTy).Contents (Elt F)),
    unary main_v98 main_v99 (broadcastInDim S8x2048 ![0, 1] bcast_S1x2048_S8x2048_0_1 : (⟨S1x2048, .f32⟩ : BufTy).Contents (Elt F) → (⟨S8x2048, .f32⟩ : BufTy).Contents (Elt F)),
    binary main_v97 main_v99 main_v100 (addf : (⟨S8x2048, .f32⟩ : BufTy).Contents (Elt F) → (⟨S8x2048, .f32⟩ : BufTy).Contents (Elt F) → (⟨S8x2048, .f32⟩ : BufTy).Contents (Elt F)),
    TRef.nullary main_call4.cst (constant S_ .f32 0x3FD62D7D#32),
    TRef.nullary main_call4.call0.cst (constant S_ .f32 0x00000000#32),
    TRef.unary main_call4.call0.cst main_call4.call0.v0 (broadcastInDim S8x2048 ![] bcast_S_S8x2048),
    TRef.binary (.of main_v100) main_call4.call0.v0 main_call4.call0.v1 (cmpf .ogt),
    TRef.nullary main_call4.call0.cst_0 (constant S_ .f32 0x00000000#32),
    TRef.unary main_call4.call0.cst_0 main_call4.call0.v2 (broadcastInDim S8x2048 ![] bcast_S_S8x2048),
    TRef.binary (.of main_v100) main_call4.call0.v2 main_call4.call0.v3 (cmpf .ogt),
    TRef.nullary main_call4.call0.cst_1 (constant S_ .f32 0x00000000#32),
    TRef.unary main_call4.call0.cst_1 main_call4.call0.call0.v0 id,
    TRef.unary main_call4.call0.call0.v0 main_call4.call0.call0.v1 (broadcastInDim S8x2048 ![] bcast_S_S8x2048),
    TRef.ternary main_call4.call0.v3 main_call4.call0.call0.v1 (.of main_v100) main_call4.call0.call0.v2 select,
    TRef.unary main_call4.call0.call0.v2 main_call4.call0.v5 Host.expm1,
    TRef.unary main_call4.cst main_call4.call0.v6 id,
    TRef.unary main_call4.call0.v6 main_call4.call0.v7 (broadcastInDim S8x2048 ![] bcast_S_S8x2048),
    TRef.binary main_call4.call0.v7 main_call4.call0.v5 main_call4.call0.v8 mulf,
    TRef.ternary main_call4.call0.v1 (.of main_v100) main_call4.call0.v8 main_call4.call0.call1.v0 select,
    TRef.nullary main_call4.cst_0 (constant S_ .f32 0x3F867D5F#32),
    TRef.unary main_call4.cst_0 main_call4.v1 (broadcastInDim S8x2048 ![] bcast_S_S8x2048),
    TRef.binary main_call4.v1 main_call4.call0.call1.v0 main_call4.v2 mulf,
    binary main_v101 main_arg8 main_v102 ((fun l r => Host.dotGeneral dot_S8x2048_S2048x15_S8x15_1_0_0_1_n_n none l r) : (⟨S8x2048, .f32⟩ : BufTy).Contents (Elt F) → (⟨S2048x15, .f32⟩ : BufTy).Contents (Elt F) → (⟨S8x15, .f32⟩ : BufTy).Contents (Elt F)),
    unary main_arg9 main_v103 (broadcastInDim S1x15 ![1] bcast_S15_S1x15_1 : (⟨S15, .f32⟩ : BufTy).Contents (Elt F) → (⟨S1x15, .f32⟩ : BufTy).Contents (Elt F)),
    unary main_v103 main_v104 (broadcastInDim S8x15 ![0, 1] bcast_S1x15_S8x15_0_1 : (⟨S1x15, .f32⟩ : BufTy).Contents (Elt F) → (⟨S8x15, .f32⟩ : BufTy).Contents (Elt F)),
    binary main_v102 main_v104 main_v105 (addf : (⟨S8x15, .f32⟩ : BufTy).Contents (Elt F) → (⟨S8x15, .f32⟩ : BufTy).Contents (Elt F) → (⟨S8x15, .f32⟩ : BufTy).Contents (Elt F)) ]

-- 188 binds re-associated: the rewrite under the chain recurses once per statement
set_option maxRecDepth 8192 in
set_option maxHeartbeats 4000000 in
/-- @main is that straight line: the three windows and the functions' definitions unfolded at their calls, the
    records at their fields, both sides are one chain of operation steps once sequencing is reassociated. -/
theorem main_eq (c : Dev nD) : main (F := F) c = seq ops := by
  simp only [main, main_part0, main_part1, main_part2, fn_where.body, fn_where_0.body, fn_where_1.body, fn_elu.body, fn_selu.body, fn_where_4.body, fn_where_5.body, fn_elu_3.body, fn_selu_2.body, seq, bind_assoc, pure_bind]

/-- No TensorCore buffer of this program is scoped to a region, and no semaphore is. -/
theorem scopedRefs_eq : (Finset.univ.filter fun b : Ref sig .tc => b.isScoped) = ∅ := by decide
theorem scopedSems_eq : (Finset.univ.filter fun sm : SemLoc sig => sm.isScoped .tc) = ∅ := by decide

/-- Every operation of the line reads and writes TensorCore buffers only: one fact per operation, in order. -/
theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub ..,
    binary_bufs_sub .., binary_bufs_sub .., nullary_bufs_sub .., unary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., unary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..,
    unary_bufs_sub .., unary_bufs_sub .., binary_bufs_sub .., nullary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., unary_bufs_sub .., unary_bufs_sub .., binary_bufs_sub ..,
    ternary_bufs_sub .., nullary_bufs_sub .., unary_bufs_sub .., binary_bufs_sub .., binary_bufs_sub .., nullary_bufs_sub ..,
    binary_bufs_sub .., binary_bufs_sub .., nullary_bufs_sub .., unary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., unary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..,
    unary_bufs_sub .., unary_bufs_sub .., binary_bufs_sub .., nullary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., unary_bufs_sub .., unary_bufs_sub .., binary_bufs_sub ..,
    ternary_bufs_sub .., nullary_bufs_sub .., unary_bufs_sub .., binary_bufs_sub .., reshape_bufs_sub .., binary_bufs_sub ..,
    unary_bufs_sub .., unary_bufs_sub .., binary_bufs_sub .., nullary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., unary_bufs_sub .., unary_bufs_sub .., binary_bufs_sub ..,
    ternary_bufs_sub .., nullary_bufs_sub .., unary_bufs_sub .., binary_bufs_sub .., binary_bufs_sub .., unary_bufs_sub ..,
    unary_bufs_sub .., binary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.HostSpec.lean ====
/-
  The graph-convolution stage that both programs run on the host before the dense head, as ONE function of the
  argument arrays, with the activation left as a parameter.

  A layer takes node features already multiplied by its weight matrix (`hw`), the edge list `ei` (row 0 the
  sources, row 1 the targets) and a bias row. Self-loops are appended to the edge list; the degree of a node is the
  number of (extended) edges landing on it; `dis` is `deg^(-1/2)` where the degree is positive and `0` elsewhere;
  an edge carries the factor `dis[source] * dis[target]`; the layer's result at a node is the sum over the edges
  landing on it of the source row times the edge's factor, plus the bias. Two such layers, each followed by the
  activation, then the `16384 × 64` array re-read as `8 × 131072`.
-/
import proofs.«154179_j72851235275292_1_alg».proof.KernelIdeal
import proofs.«154179_j72851235275292_1_alg».proof.Proof.Gen.KernelIdeal

noncomputable section

namespace Cert.HostSpec

open Cert.KernelIdeal Cert.KernelIdeal.Facts₀ Idealize.ShloMosaic

variable {F : FTy → Type} [FloatOps F]

/-- A float array of shape `S`. -/
abbrev FA (F : FTy → Type) [FloatOps F] (S : Shape) : Type := BufTy.Contents (Elt F) ⟨S, .f32⟩
/-- An array of 32-bit integers of shape `S`. -/
abbrev IA (F : FTy → Type) [FloatOps F] (S : Shape) : Type := BufTy.Contents (Elt F) ⟨S, .i32⟩

/-- Row `r` of the edge list (`r = 0` sources, `r = 1` targets) followed by the self-loops `0, 1, …, 16383`. -/
def endsOf (r : Fin 2) (ei : IA F S2x524288) : IA F S540672 :=
  match r with
  | 0 => concatenate S540672 0 [⟨S524288, fun i => shapeCast S524288 (extractStridedSlice S1x524288 ![0, 0] ei slices_S2x524288_S1x524288_0_0) shapeCasts_S1x524288_S524288 i⟩, ⟨S16384, iotaInDim S16384 32 0⟩] concatenates_S524288_S16384_S540672_d0
  | 1 => concatenate S540672 0 [⟨S524288, fun i => shapeCast S524288 (extractStridedSlice S1x524288 ![1, 0] ei slices_S2x524288_S1x524288_1_0) shapeCasts_S1x524288_S524288 i⟩, ⟨S16384, iotaInDim S16384 32 0⟩] concatenates_S524288_S16384_S540672_d0

/-- Node indices made non-negative (a negative index counts from the end) and set up as a column of gather starts. -/
def wrapCol (v : IA F S540672) : IA F S540672x1 :=
  broadcastInDim S540672x1 ![0] bcast_S540672_S540672x1_0
    (select (cmpi .slt v (broadcastInDim S540672 ![] bcast_S_S540672 (constantI S_ 32 0#32)))
      (addi v (broadcastInDim S540672 ![] bcast_S_S540672 (constantI S_ 32 16384#32))) v)

/-- The degree of every node: ones scatter-added along the targets. -/
def degOf (d : IA F S540672) : FA F S16384 :=
  Host.scatterAdd scatter_S16384_S540672x1_S540672_n_0_0_1
    (broadcastInDim S16384 ![] bcast_S_S16384 (constant S_ .f32 0x00000000#32))
    (broadcastInDim S540672x1 ![0] bcast_S540672_S540672x1_0 d)
    (broadcastInDim S540672 ![] bcast_S_S540672 (constant S_ .f32 0x3F800000#32))

/-- `deg^(-1/2)` where the degree is positive, `0` elsewhere. -/
def disOf (deg : FA F S16384) : FA F S16384 :=
  select (cmpf .ogt deg (broadcastInDim S16384 ![] bcast_S_S16384 (constant S_ .f32 0x00000000#32)))
    (Host.rsqrt (maximumf deg (broadcastInDim S16384 ![] bcast_S_S16384 (constant S_ .f32 0x2B8CBCCC#32))))
    (broadcastInDim S16384 ![] bcast_S_S16384 (id (constant S_ .f32 0x00000000#32)))

/-- The factor of every edge: `dis` at its source times `dis` at its target. -/
def normOf (dis : FA F S16384) (s d : IA F S540672) : FA F S540672 :=
  mulf (Host.gather gather_S16384_S540672x1_S540672_n_0_n_n_0_1_1 dis (wrapCol s))
    (Host.gather gather_S16384_S540672x1_S540672_n_0_n_n_0_1_1 dis (wrapCol d))

/-- One layer without its activation: gather the source rows, scale each by its edge's factor, scatter-add along
    the targets, add the bias row. -/
def layerOf (hw : FA F S16384x64) (ei : IA F S2x524288) (b : FA F S64) : FA F S16384x64 :=
  addf
    (Host.scatterAdd scatter_S16384x64_S540672x1_S540672x64_1_0_0_1
      (broadcastInDim S16384x64 ![] bcast_S_S16384x64 (constant S_ .f32 0x00000000#32))
      (broadcastInDim S540672x1 ![0] bcast_S540672_S540672x1_0 (endsOf 1 ei))
      (mulf (Host.gather gather_S16384x64_S540672x1_S540672x64_1_0_n_n_0_1_164 hw (wrapCol (endsOf 0 ei)))
        (broadcastInDim S540672x64 ![0, 1] bcast_S540672x1_S540672x64_0_1
          (broadcastInDim S540672x1 ![0] bcast_S540672_S540672x1_0
            (normOf (disOf (degOf (endsOf 1 ei))) (endsOf 0 ei) (endsOf 1 ei))))))
    (broadcastInDim S16384x64 ![0, 1] bcast_S1x64_S16384x64_0_1 (broadcastInDim S1x64 ![1] bcast_S64_S1x64_1 b))

/-- The two layers, each followed by the activation `act`, and the re-reading as `8 × 131072`. -/
def hostG (act : FA F S16384x64 → FA F S16384x64) (x : FA F S16384x4) (ei : IA F S2x524288) (W1 : FA F S4x64) (b1 : FA F S64)
    (W2 : FA F S64x64) (b2 : FA F S64) : FA F S8x131072 :=
  fun i => shapeCast S8x131072
    (act (layerOf (Host.dotGeneral dot_S16384x64_S64x64_S16384x64_1_0_0_1_n_n none
      (act (layerOf (Host.dotGeneral dot_S16384x4_S4x64_S16384x64_1_0_0_1_n_n none x W1) ei b1)) W2) ei b2))
    shapeCasts_S16384x64_S8x131072 i

/-- The activation as the kernel's program spells it: `scale · (v > 0 ? v : alpha · (exp v − 1))`. -/
def actK (v : FA F S16384x64) : FA F S16384x64 :=
  mulf (broadcastInDim S16384x64 ![] bcast_S_S16384x64 (constant S_ .f32 0x3F867D5F#32))
    (select (cmpf .ogt v (broadcastInDim S16384x64 ![] bcast_S_S16384x64 (constant S_ .f32 0x00000000#32))) v
      (mulf (broadcastInDim S16384x64 ![] bcast_S_S16384x64 (constant S_ .f32 0x3FD62D7D#32))
        (subf (Host.exp v) (broadcastInDim S16384x64 ![] bcast_S_S16384x64 (constant S_ .f32 0x3F800000#32)))))

/-- The activation as the reference spells it: `scale · (v > 0 ? v : alpha · expm1 (v > 0 ? 0 : v))`. -/
def actR (v : FA F S16384x64) : FA F S16384x64 :=
  mulf (broadcastInDim S16384x64 ![] bcast_S_S16384x64 (constant S_ .f32 0x3F867D5F#32))
    (select (cmpf .ogt v (broadcastInDim S16384x64 ![] bcast_S_S16384x64 (constant S_ .f32 0x00000000#32))) v
      (mulf (broadcastInDim S16384x64 ![] bcast_S_S16384x64 (id (constant S_ .f32 0x3FD62D7D#32)))
        (Host.expm1 (select (cmpf .ogt v (broadcastInDim S16384x64 ![] bcast_S_S16384x64 (constant S_ .f32 0x00000000#32)))
          (broadcastInDim S16384x64 ![] bcast_S_S16384x64 (id (constant S_ .f32 0x00000000#32))) v))))

end Cert.HostSpec

end
-- ==== Proof.RefSpec.lean ====
/-
  The reference program's result as one function of its ten argument arrays: the graph-convolution stage with the
  activation in the reference's spelling, then the dense head — a product with the first dense weight, its bias on
  every row, the activation, a product with the second dense weight, its bias on every row.
-/
import proofs.«154179_j72851235275292_1_alg».proof.ReferenceIdeal
import proofs.«154179_j72851235275292_1_alg».proof.Proof.Gen.ReferenceIdeal
import proofs.«154179_j72851235275292_1_alg».proof.Proof.HostSpec

noncomputable section

namespace Cert.RefSpec

open Cert.ReferenceIdeal Cert.ReferenceIdeal.Facts₀ Idealize.ShloMosaic
open Cert.HostSpec (FA IA hostG actR)

variable {F : FTy → Type} [FloatOps F]

/-- The activation on the 8 × 2048 hidden layer, in the reference's spelling. -/
def actR8 (v : FA F S8x2048) : FA F S8x2048 :=
  mulf (broadcastInDim S8x2048 ![] bcast_S_S8x2048 (constant S_ .f32 0x3F867D5F#32))
    (select (cmpf .ogt v (broadcastInDim S8x2048 ![] bcast_S_S8x2048 (constant S_ .f32 0x00000000#32))) v
      (mulf (broadcastInDim S8x2048 ![] bcast_S_S8x2048 (id (constant S_ .f32 0x3FD62D7D#32)))
        (Host.expm1 (select (cmpf .ogt v (broadcastInDim S8x2048 ![] bcast_S_S8x2048 (constant S_ .f32 0x00000000#32)))
          (broadcastInDim S8x2048 ![] bcast_S_S8x2048 (id (constant S_ .f32 0x00000000#32))) v))))

/-- The dense head on flattened features `hf`. -/
def headR (hf : FA F S8x131072) (Wf1 : FA F S131072x2048) (bf1 : FA F S2048) (Wf2 : FA F S2048x15) (bf2 : FA F S15) : FA F S8x15 :=
  addf
    (Host.dotGeneral dot_S8x2048_S2048x15_S8x15_1_0_0_1_n_n none
      (actR8 (addf (Host.dotGeneral dot_S8x131072_S131072x2048_S8x2048_1_0_0_1_n_n none hf Wf1)
        (broadcastInDim S8x2048 ![0, 1] bcast_S1x2048_S8x2048_0_1 (broadcastInDim S1x2048 ![1] bcast_S2048_S1x2048_1 bf1))))
      Wf2)
    (broadcastInDim S8x15 ![0, 1] bcast_S1x15_S8x15_0_1 (broadcastInDim S1x15 ![1] bcast_S15_S1x15_1 bf2))

/-- The reference's result. -/
def refOut (x : FA F S16384x4) (ei : IA F S2x524288) (W1 : FA F S4x64) (b1 : FA F S64) (W2 : FA F S64x64) (b2 : FA F S64)
    (Wf1 : FA F S131072x2048) (bf1 : FA F S2048) (Wf2 : FA F S2048x15) (bf2 : FA F S15) : FA F S8x15 :=
  headR (hostG actR x ei W1 b1 W2 b2) Wf1 bf1 Wf2 bf2

end Cert.RefSpec

end
-- ==== Proof.LibConcat.lean ====
/-
  Two arrays joined along an axis, as a function of the two arrays.

  The join of a list of arrays takes its operands as a list of (shape, array) pairs. For a two-operand join the same
  array is named here as a function of the two arrays, so that a statement about either operand can be used in place
  inside a join.
-/
import Idealize.ShloMosaic.PureOps.ShapeOps

noncomputable section

namespace Cert.LibConcat

open Idealize.ShloMosaic

/-- Two arrays joined along an axis. -/
def concat2 {α : Type} (t : Shape) (a : Fin t.rank) (s1 s2 : Shape) (x : s1.Idx → α) (y : s2.Idx → α)
    (h : Shape.Concatenates [s1, s2] t a) : t.Idx → α :=
  concatenate t a [⟨s1, x⟩, ⟨s2, y⟩] h

/-- The join of a two-element list is that function of its two arrays. -/
theorem concat2_fold {α : Type} (t : Shape) (a : Fin t.rank) (s1 s2 : Shape) (x : s1.Idx → α) (y : s2.Idx → α)
    (h : Shape.Concatenates [s1, s2] t a) : concatenate t a [⟨s1, x⟩, ⟨s2, y⟩] h = concat2 t a s1 s2 x y h := rfl

end Cert.LibConcat

end
-- ==== Proof.RefValue.lean ====
/-
  What the reference program's run leaves in its result buffer and in its argument buffers, as functions of the
  argument arrays. The line of operations is folded once: each operation's result buffer is rewritten to its
  function applied to what its operand buffers hold, every other buffer to what it held before; the result buffer
  then holds a term over the ten argument arrays that is the stated function by unfolding, and an argument buffer,
  which no operation writes, holds what it held at launch.
-/
import proofs.«154179_j72851235275292_1_alg».proof.Proof.RefRun
import proofs.«154179_j72851235275292_1_alg».proof.Proof.RefSpec
import proofs.«154179_j72851235275292_1_alg».proof.Proof.LibConcat
import Idealize.ShloMosaic.Lib.StableHlo.Run

-- the fold over 188 operations rewrites under a term as deep as the program is long
set_option maxRecDepth 16384

noncomputable section

namespace Cert.ReferenceIdeal.RefValue

open Cert.ReferenceIdeal Idealize.ShloMosaic Idealize.ShloMosaic.StableHlo Idealize.ShloMosaic.TcCoe Idealize.SL.Sem

variable {F : FTy → Type} [FloatOps F]

set_option maxHeartbeats 4000000 in
/-- The result buffer after the line: the fold unrolled, each operation's result at its own buffer rewritten to its
    function's value and at any other buffer to what was there (the buffers told apart by deciding the references'
    inequality), a two-operand join refolded into a function of its two arrays so that the rewriting goes on inside
    it; what is left is the stated function unfolded. -/
theorem out_eq (V : Valuation τ sig (Elt F)) :
    after RefRun.ops V (main_v105 : DevRef τ sig)
      = Cert.RefSpec.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  simp (disch := decide) only [after_cons, after_nil, nullary_result', unary_result', binary_result', ternary_result', quaternary_result',
    reshape_result', nary4_result', nary_result', unaryIndexed_result', binaryIndexed_result', nullary_result_ne', unary_result_ne',
    binary_result_ne', ternary_result_ne', quaternary_result_ne', reshape_result_ne', nary_result_ne', unaryIndexed_result_ne',
    binaryIndexed_result_ne', Cert.LibConcat.concat2_fold]
  rfl

/-! No operation of the line writes an argument buffer: each keeps its launch contents. -/

set_option maxHeartbeats 4000000 in
theorem arg0_eq (V : Valuation τ sig (Elt F)) :
    after RefRun.ops V (main_arg0 : DevRef τ sig) = V (main_arg0 : DevRef τ sig) := by
  simp (disch := decide) only [after_cons, after_nil, nullary_result', unary_result', binary_result', ternary_result', quaternary_result',
    reshape_result', nary4_result', nary_result', unaryIndexed_result', binaryIndexed_result', nullary_result_ne', unary_result_ne',
    binary_result_ne', ternary_result_ne', quaternary_result_ne', reshape_result_ne', nary_result_ne', unaryIndexed_result_ne',
    binaryIndexed_result_ne', Cert.LibConcat.concat2_fold]

set_option maxHeartbeats 4000000 in
theorem arg1_eq (V : Valuation τ sig (Elt F)) :
    after RefRun.ops V (main_arg1 : DevRef τ sig) = V (main_arg1 : DevRef τ sig) := by
  simp (disch := decide) only [after_cons, after_nil, nullary_result', unary_result', binary_result', ternary_result', quaternary_result',
    reshape_result', nary4_result', nary_result', unaryIndexed_result', binaryIndexed_result', nullary_result_ne', unary_result_ne',
    binary_result_ne', ternary_result_ne', quaternary_result_ne', reshape_result_ne', nary_result_ne', unaryIndexed_result_ne',
    binaryIndexed_result_ne', Cert.LibConcat.concat2_fold]

set_option maxHeartbeats 4000000 in
theorem arg2_eq (V : Valuation τ sig (Elt F)) :
    after RefRun.ops V (main_arg2 : DevRef τ sig) = V (main_arg2 : DevRef τ sig) := by
  simp (disch := decide) only [after_cons, after_nil, nullary_result', unary_result', binary_result', ternary_result', quaternary_result',
    reshape_result', nary4_result', nary_result', unaryIndexed_result', binaryIndexed_result', nullary_result_ne', unary_result_ne',
    binary_result_ne', ternary_result_ne', quaternary_result_ne', reshape_result_ne', nary_result_ne', unaryIndexed_result_ne',
    binaryIndexed_result_ne', Cert.LibConcat.concat2_fold]

set_option maxHeartbeats 4000000 in
theorem arg3_eq (V : Valuation τ sig (Elt F)) :
    after RefRun.ops V (main_arg3 : DevRef τ sig) = V (main_arg3 : DevRef τ sig) := by
  simp (disch := decide) only [after_cons, after_nil, nullary_result', unary_result', binary_result', ternary_result', quaternary_result',
    reshape_result', nary4_result', nary_result', unaryIndexed_result', binaryIndexed_result', nullary_result_ne', unary_result_ne',
    binary_result_ne', ternary_result_ne', quaternary_result_ne', reshape_result_ne', nary_result_ne', unaryIndexed_result_ne',
    binaryIndexed_result_ne', Cert.LibConcat.concat2_fold]

set_option maxHeartbeats 4000000 in
theorem arg4_eq (V : Valuation τ sig (Elt F)) :
    after RefRun.ops V (main_arg4 : DevRef τ sig) = V (main_arg4 : DevRef τ sig) := by
  simp (disch := decide) only [after_cons, after_nil, nullary_result', unary_result', binary_result', ternary_result', quaternary_result',
    reshape_result', nary4_result', nary_result', unaryIndexed_result', binaryIndexed_result', nullary_result_ne', unary_result_ne',
    binary_result_ne', ternary_result_ne', quaternary_result_ne', reshape_result_ne', nary_result_ne', unaryIndexed_result_ne',
    binaryIndexed_result_ne', Cert.LibConcat.concat2_fold]

set_option maxHeartbeats 4000000 in
theorem arg5_eq (V : Valuation τ sig (Elt F)) :
    after RefRun.ops V (main_arg5 : DevRef τ sig) = V (main_arg5 : DevRef τ sig) := by
  simp (disch := decide) only [after_cons, after_nil, nullary_result', unary_result', binary_result', ternary_result', quaternary_result',
    reshape_result', nary4_result', nary_result', unaryIndexed_result', binaryIndexed_result', nullary_result_ne', unary_result_ne',
    binary_result_ne', ternary_result_ne', quaternary_result_ne', reshape_result_ne', nary_result_ne', unaryIndexed_result_ne',
    binaryIndexed_result_ne', Cert.LibConcat.concat2_fold]

set_option maxHeartbeats 4000000 in
theorem arg6_eq (V : Valuation τ sig (Elt F)) :
    after RefRun.ops V (main_arg6 : DevRef τ sig) = V (main_arg6 : DevRef τ sig) := by
  simp (disch := decide) only [after_cons, after_nil, nullary_result', unary_result', binary_result', ternary_result', quaternary_result',
    reshape_result', nary4_result', nary_result', unaryIndexed_result', binaryIndexed_result', nullary_result_ne', unary_result_ne',
    binary_result_ne', ternary_result_ne', quaternary_result_ne', reshape_result_ne', nary_result_ne', unaryIndexed_result_ne',
    binaryIndexed_result_ne', Cert.LibConcat.concat2_fold]

set_option maxHeartbeats 4000000 in
theorem arg7_eq (V : Valuation τ sig (Elt F)) :
    after RefRun.ops V (main_arg7 : DevRef τ sig) = V (main_arg7 : DevRef τ sig) := by
  simp (disch := decide) only [after_cons, after_nil, nullary_result', unary_result', binary_result', ternary_result', quaternary_result',
    reshape_result', nary4_result', nary_result', unaryIndexed_result', binaryIndexed_result', nullary_result_ne', unary_result_ne',
    binary_result_ne', ternary_result_ne', quaternary_result_ne', reshape_result_ne', nary_result_ne', unaryIndexed_result_ne',
    binaryIndexed_result_ne', Cert.LibConcat.concat2_fold]

set_option maxHeartbeats 4000000 in
theorem arg8_eq (V : Valuation τ sig (Elt F)) :
    after RefRun.ops V (main_arg8 : DevRef τ sig) = V (main_arg8 : DevRef τ sig) := by
  simp (disch := decide) only [after_cons, after_nil, nullary_result', unary_result', binary_result', ternary_result', quaternary_result',
    reshape_result', nary4_result', nary_result', unaryIndexed_result', binaryIndexed_result', nullary_result_ne', unary_result_ne',
    binary_result_ne', ternary_result_ne', quaternary_result_ne', reshape_result_ne', nary_result_ne', unaryIndexed_result_ne',
    binaryIndexed_result_ne', Cert.LibConcat.concat2_fold]

set_option maxHeartbeats 4000000 in
theorem arg9_eq (V : Valuation τ sig (Elt F)) :
    after RefRun.ops V (main_arg9 : DevRef τ sig) = V (main_arg9 : DevRef τ sig) := by
  simp (disch := decide) only [after_cons, after_nil, nullary_result', unary_result', binary_result', ternary_result', quaternary_result',
    reshape_result', nary4_result', nary_result', unaryIndexed_result', binaryIndexed_result', nullary_result_ne', unary_result_ne',
    binary_result_ne', ternary_result_ne', quaternary_result_ne', reshape_result_ne', nary_result_ne', unaryIndexed_result_ne',
    binaryIndexed_result_ne', Cert.LibConcat.concat2_fold]

/-- At the compiled mesh, for any float values, from any memory with zero counters: every weakly fair execution of
    @main terminates, the result buffer ends at the stated function of the launch contents of the ten argument
    buffers, and those end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v105) = Cert.RefSpec.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9) :=
  (θ_run defs _ _).mono
    (fun _ h c => ⟨(h c main_v105).trans (out_eq _),
        (h c main_arg0).trans (arg0_eq _),
        (h c main_arg1).trans (arg1_eq _),
        (h c main_arg2).trans (arg2_eq _),
        (h c main_arg3).trans (arg3_eq _),
        (h c main_arg4).trans (arg4_eq _),
        (h c main_arg5).trans (arg5_eq _),
        (h c main_arg6).trans (arg6_eq _),
        (h c main_arg7).trans (arg7_eq _),
        (h c main_arg8).trans (arg8_eq _),
        (h c main_arg9).trans (arg9_eq _)⟩)
    (RefRun.run_main m ρ)

end Cert.ReferenceIdeal.RefValue

end
-- ==== Proof.HeadSpec.lean ====
/-
  The dense head at one entry, over the extended reals.

  For flattened features `h` (8 × 131072), dense weights `W1` (131072 × 2048), `W2` (2048 × 15) and biases `b1`, `b2`:
  entry (p, j) of the result is  Σₙ selu(Σₖ h(p,k)·W1(k,n) + b1(n)) · W2(n,j) + b2(j),
  with `selu x = scale · (x > 0 ? x : alpha · (exp x − 1))` on the float words both programs spell.
-/
import Idealize.ShloMosaic.PureOps.Ideal
import Idealize.ShloMosaic.Lib.ValueIdx

noncomputable section

namespace Cert.HeadSpec

open Idealize.ShloMosaic Idealize.ShloMosaic.ValueIdx
open scoped BigOperators

/-- The activation at one extended real. -/
def selu (x : EReal) : EReal :=
  Ideal.ofBits .f32 0x3F867D5F#32 *
    Scalar.select (FloatOps.cmpf (F := Ideal) (φ := .f32) .ogt x (Ideal.ofBits .f32 0x00000000#32)) x
      (Ideal.ofBits .f32 0x3FD62D7D#32 * (Ideal.exp x - Ideal.ofBits .f32 0x3F800000#32))

/-- The hidden layer before its activation, at (p, n). -/
def preAt (h : FVec Ideal ⟨2, ![8, 131072]⟩ .f32) (W1 : FVec Ideal ⟨2, ![131072, 2048]⟩ .f32) (b1 : FVec Ideal ⟨1, ![2048]⟩ .f32)
    (p : Fin 8) (n : Fin 2048) : EReal :=
  (∑ k : Fin 131072, h (ix2 p k) * W1 (ix2 k n)) + b1 (ix1 n)

/-- The head's result at (p, j). -/
def headAt (h : FVec Ideal ⟨2, ![8, 131072]⟩ .f32) (W1 : FVec Ideal ⟨2, ![131072, 2048]⟩ .f32) (b1 : FVec Ideal ⟨1, ![2048]⟩ .f32)
    (W2 : FVec Ideal ⟨2, ![2048, 15]⟩ .f32) (b2 : FVec Ideal ⟨1, ![15]⟩ .f32) (p : Fin 8) (j : Fin 15) : EReal :=
  (∑ n : Fin 2048, selu (preAt h W1 b1 p n) * W2 (ix2 n j)) + b2 (ix1 j)

end Cert.HeadSpec

end
-- ==== Proof.LibPlainDot.lean ====
/-
  A plain matrix product over the extended reals, read at one entry.

  For an M×K matrix `l` and a K×N matrix `r` the product contracted over `l`'s columns and `r`'s rows has, at
  entry (p, q), the value ∑ₖ l(p,k)·r(k,q). This holds both for the vector unit's product into a zero accumulator
  and for the host's `dot_general`, so the two are the same sum; the only work is to identify the contraction's
  one-axis index type with `Fin K` and the operand indices with (p,k) and (k,q).
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : ℕ} {φ₁ φ₂ : FTy}

/-- The sum over the contraction index of a plain M×K by K×N product is the sum over `k : Fin K` of the left operand
    at (row, k) times the right operand at (k, column). -/
theorem plain_sum (l : FVec Ideal ⟨2, ![M, K]⟩ φ₁) (r : FVec Ideal ⟨2, ![K, N]⟩ φ₂) (p : Fin M) (q : Fin N) :
    (∑ c : (DotDims.plain M K N).contr.Idx,
        l ((DotDims.plain M K N).lhsIdx (ix2 p q) c) * r ((DotDims.plain M K N).rhsIdx (ix2 p q) c))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- The vector unit's product into the zero accumulator, for any dimension record that is the plain one. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  exact (Ideal.matmul_constant_zero_apply _ prec l r (ix2 p q)).trans (plain_sum l r p q)

/-- The host's `dot_general`, for any dimension record that is the plain one. -/
theorem dotGeneral_apply (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  exact (Ideal.dotGeneral_apply _ prec sched l r (ix2 p q)).trans (plain_sum l r p q)

end Cert.LibPlainDot

end
-- ==== Proof.LibScatterSum.lean ====
/-
  Two general facts for comparing a blocked, dense computation with a gather / scatter-add formulation of the
  same sums. Nothing here mentions a program.

  * Over the extended reals the host's accumulating float scatter is, at each element, the operand's element plus
    the sum of the updates whose result index is that element. When those updates are exactly the image of an
    injective enumeration `g` (for a dense edge list: the edges with a given target, enumerated by their source),
    the sum is a plain sum over the enumeration.
  * A sum over `m * n` consecutive rows is the sum over the `m` blocks of the sums over each block's `n` rows.
-/
import Idealize.ShloMosaic.PureOps.Ideal
import Mathlib.Algebra.BigOperators.Fin
import Mathlib.Logic.Equiv.Fin.Basic

noncomputable section

namespace Cert.Lib.ScatterSum

open Idealize.ShloMosaic

/-- The accumulating scatter at element `i`, when the updates landing on `i` are enumerated without repetition by
    `g`: the operand's element plus the sum of those updates. -/
theorem hostScatterAdd_apply_of_fiber {s si su : Shape} (d : ScatterDims s si su) {w : Nat} (x : s.Idx → EReal)
    (idx : IVec si w) (upd : su.Idx → EReal) (i : s.Idx) {κ : Type*} [Fintype κ] (g : κ → su.Idx)
    (hg : Function.Injective g) (h : ∀ j, d.resultIdx? j idx = some i ↔ ∃ k, g k = j) :
    Ideal.hostScatterAdd d x idx upd i = x i + ∑ k, upd (g k) := by
  classical
  unfold Ideal.hostScatterAdd
  have e : (Finset.univ.filter fun j => d.resultIdx? j idx = some i) = Finset.univ.image g := by
    ext j
    simp only [Finset.mem_filter, Finset.mem_univ, true_and, Finset.mem_image, h]
  have e' : (∑ j ∈ Finset.univ.filter (fun j => d.resultIdx? j idx = some i), upd j) = ∑ k, upd (g k) := by
    rw [← Finset.sum_image (s := Finset.univ) (g := g) (f := upd) (fun a _ b _ hab => hg hab), ← e]
  exact congrArg (x i + ·) e'

/-- Row `i` of block `b` is a row of the whole. -/
theorem block_row_lt {m n b i : ℕ} (hb : b < m) (hi : i < n) : b * n + i < m * n :=
  calc b * n + i < b * n + n := Nat.add_lt_add_left hi _
    _ = (b + 1) * n := by ring
    _ ≤ m * n := Nat.mul_le_mul_right _ hb

/-- A sum over `m * n` rows, block by block. -/
theorem sum_blocks {M : Type*} [AddCommMonoid M] (m n : ℕ) (f : Fin (m * n) → M) :
    ∑ k, f k = ∑ b : Fin m, ∑ i : Fin n, f ⟨b.val * n + i.val, block_row_lt b.isLt i.isLt⟩ := by
  rw [← Equiv.sum_comp finProdFinEquiv f, Fintype.sum_prod_type]
  refine Finset.sum_congr rfl fun b _ => Finset.sum_congr rfl fun i _ => congrArg f (Fin.ext ?_)
  simp only [finProdFinEquiv_apply_val]
  ring

end Cert.Lib.ScatterSum

end
-- ==== Proof.KernelHead.lean ====
/-
  The kernel's result read at an entry, over the extended reals: it is the dense head applied to the arrays its
  windows read.

  A step's product block at (p, q) is the sum over the step's 1024 contraction indices; the accumulator after the
  last step is the cleared accumulator (zero) plus the 128 step sums, which together run over all 131072 contraction
  indices once, in order — and sums over the extended reals may be regrouped freely.
-/
import proofs.«154179_j72851235275292_1_alg».proof.Proof.KernelValue
import proofs.«154179_j72851235275292_1_alg».proof.Proof.HeadSpec
import proofs.«154179_j72851235275292_1_alg».proof.Proof.LibPlainDot
import proofs.«154179_j72851235275292_1_alg».proof.Proof.LibScatterSum
import Idealize.ShloMosaic.Lib.ValueIdx
import Idealize.ShloMosaic.Lib.Pipeline.Value
import Idealize.ShloMosaic.PureOps.Ideal.Laws

noncomputable section

namespace Cert.KernelIdeal.KHead

open Idealize.ShloMosaic Idealize.ShloMosaic.TcCoe Idealize.SL.Sem Idealize.ShloMosaic.ValueIdx
open Cert.KernelIdeal Cert.KernelIdeal.Gen Cert.KernelIdeal.KValue Cert.HeadSpec
open scoped BigOperators

/-- One term of a contraction: left operand at (p, k) times right operand at (k, q). -/
def termAt {M K N : ℕ} (A : FVec Ideal ⟨2, ![M, K]⟩ .f32) (B : FVec Ideal ⟨2, ![K, N]⟩ .f32) (p : Fin M) (q : Fin N) (k : Fin K) : EReal :=
  A (ix2 p k) * B (ix2 k q)

/-- Entry (p, q) of a step's product: the sum over the step's 1024 contraction indices. -/
def blockDot (A : FVec Ideal S8x1024 .f32) (B : FVec Ideal S1024x2048 .f32) (p : Fin 8) (q : Fin 2048) : EReal :=
  ∑ k : Fin 1024, A (ix2 p k) * B (ix2 k q)

/-- Entry (p, q) of the whole product: the sum over all 131072 contraction indices. -/
def fullDot (A : FVec Ideal S8x131072 .f32) (B : FVec Ideal S131072x2048 .f32) (p : Fin 8) (q : Fin 2048) : EReal :=
  ∑ k : Fin 131072, termAt A B p q k

/-- The whole product's entry, its terms spelt out. -/
theorem fullDot_eq (A : FVec Ideal S8x131072 .f32) (B : FVec Ideal S131072x2048 .f32) (p : Fin 8) (q : Fin 2048) :
    fullDot A B p q = ∑ k : Fin 131072, A (ix2 p k) * B (ix2 k q) := rfl

/-! ## The three payloads at an entry -/

/-- The cleared accumulator is zero everywhere. -/
theorem pay1_apply (i : S8x2048.Idx) : (k0_pay1 (F := Ideal)) i = 0 := by
  unfold k0_pay1
  rw [shapeCast_self]
  exact Ideal.ofBits_zero_f32

/-- A step adds, at (p, q), the sum over its 1024 contraction indices. -/
theorem pay2_apply (x0 : Vec Ideal S8x1024 .f32) (x1 : Vec Ideal S1024x2048 .f32) (acc : Vec Ideal S8x2048 .f32)
    (p : Fin 8) (q : Fin 2048) :
    k0_pay2 (F := Ideal) x0 x1 acc (ix2 p q) = acc (ix2 p q) + blockDot x0 x1 p q := by
  unfold k0_pay2
  rw [shapeCast_self, shapeCast_self]
  show acc (ix2 p q) + FloatOps.matmul (F := Ideal) _ none _ _ _ (ix2 p q) = _
  rw [Cert.LibPlainDot.matmul_zero_apply dot_S8x1024_S1024x2048_S8x2048_1_0_0_1_n_n rfl]
  rfl

/-- A one-row matrix broadcast down the rows, read at (p, q): the row at (0, q). -/
theorem bcastRow_apply {M N : ℕ} {α : Type} (x : (⟨2, ![1, N]⟩ : Shape).Idx → α) (h : (⟨2, ![1, N]⟩ : Shape).Broadcasts ⟨2, ![M, N]⟩)
    (p : Fin M) (q : Fin N) : broadcastTo ⟨2, ![M, N]⟩ x h (ix2 p q) = x (ix2 (0 : Fin 1) q) := by
  refine broadcastTo_apply x h (ix2 p q) (ix2 (0 : Fin 1) q) (fun a => ?_)
  match a with
  | ⟨0, _⟩ => rfl
  | ⟨1, _⟩ =>
    show q.val = if N = 1 then 0 else q.val
    split_ifs with hN
    · have := q.isLt; omega
    · rfl

/-- The head at (p, j). -/
theorem pay3_apply (acc : Vec Ideal S8x2048 .f32) (r1 : Vec Ideal S1x2048 .f32) (W2 : Vec Ideal S2048x15 .f32) (r2 : Vec Ideal S1x15 .f32)
    (p : Fin 8) (j : Fin 15) :
    k0_pay3 (F := Ideal) acc r1 W2 r2 (ix2 p j)
      = (∑ n : Fin 2048, selu (acc (ix2 p n) + r1 (ix2 (0 : Fin 1) n)) * W2 (ix2 n j)) + r2 (ix2 (0 : Fin 1) j) := by
  unfold k0_pay3
  rw [shapeCast_self, shapeCast_self]
  show FloatOps.matmul (F := Ideal) _ none _ _ _ (ix2 p j) + broadcastTo S8x15 r2 _ (ix2 p j) = _
  rw [Cert.LibPlainDot.matmul_zero_apply dot_S8x2048_S2048x15_S8x15_1_0_0_1_n_n rfl, bcastRow_apply]
  refine congrArg₂ (· + ·) (Finset.sum_congr rfl fun n _ => ?_) rfl
  show selu (acc (ix2 p n) + broadcastTo S8x2048 r1 _ (ix2 p n)) * W2 (ix2 n j) = _
  rw [bcastRow_apply]

/-! ## The windows' blocks as pieces of the arrays -/

variable (m : (ℓ : Loc nD τ sig) → Buf (Elt Ideal) ℓ)

/-- Step `t` reads block (0, t) of the flattened features and block (t, 0) of the first dense weight; the other three
    windows sit at block (0, 0) throughout. -/
theorem idx_facts : ∀ t : Fin cfg0.N,
    (win0_0.index t 0 = 0 ∧ win0_0.index t 1 = t.val) ∧ (win0_1.index t 0 = t.val ∧ win0_1.index t 1 = 0)
      ∧ (win0_2.index t 0 = 0 ∧ win0_2.index t 1 = 0) ∧ (win0_3.index t 0 = 0 ∧ win0_3.index t 1 = 0)
      ∧ (win0_4.index t 0 = 0 ∧ win0_4.index t 1 = 0) :=
  (by decide +kernel : ∀ t : Fin grid0.N, _)

/-- Entry (p, k) of step `t`'s features block is entry (p, 1024·t + k) of the flattened features. -/
theorem iblk0_apply (c : Dev nD) (t : Fin cfg0.N) (p : Fin 8) (k : Fin 1024) (hk : t.val * 1024 + k.val < 131072) :
    (iblk m c 0 t : Vec Ideal S8x1024 .f32) (ix2 p k) = (V m c main_v114 : Vec Ideal S8x131072 .f32) (ix2 p ⟨t.val * 1024 + k.val, hk⟩) := by
  unfold iblk
  rw [View.read_apply]
  show V m c main_v114 _ = V m c main_v114 _
  refine congrArg (V m c main_v114) (funext fun a => Fin.ext ?_)
  match a with
  | ⟨0, _⟩ => show win0_0.index t 0 * 8 + 1 * p.val = p.val; rw [(idx_facts t).1.1]; omega
  | ⟨1, _⟩ => show win0_0.index t 1 * 1024 + 1 * k.val = t.val * 1024 + k.val; rw [(idx_facts t).1.2]; omega

/-- Entry (k, q) of step `t`'s weight block is entry (1024·t + k, q) of the first dense weight. -/
theorem iblk1_apply (c : Dev nD) (t : Fin cfg0.N) (k : Fin 1024) (q : Fin 2048) (hk : t.val * 1024 + k.val < 131072) :
    (iblk m c 1 t : Vec Ideal S1024x2048 .f32) (ix2 k q) = (V m c main_arg6 : Vec Ideal S131072x2048 .f32) (ix2 ⟨t.val * 1024 + k.val, hk⟩ q) := by
  unfold iblk
  rw [View.read_apply]
  show V m c main_arg6 _ = V m c main_arg6 _
  refine congrArg (V m c main_arg6) (funext fun a => Fin.ext ?_)
  match a with
  | ⟨0, _⟩ => show win0_1.index t 0 * 1024 + 1 * k.val = t.val * 1024 + k.val; rw [(idx_facts t).2.1.1]; omega
  | ⟨1, _⟩ => show win0_1.index t 1 * 2048 + 1 * q.val = q.val; rw [(idx_facts t).2.1.2]; omega

/-- The first bias row's block is the whole row. -/
theorem iblk2_eq (c : Dev nD) (t : Fin cfg0.N) : (iblk m c 2 t : Vec Ideal S1x2048 .f32) = V m c main_v115 := by
  funext y
  unfold iblk
  rw [View.read_apply]
  show V m c main_v115 _ = V m c main_v115 y
  refine congrArg (V m c main_v115) (funext fun a => Fin.ext ?_)
  match a with
  | ⟨0, _⟩ => show win0_2.index t 0 * 1 + 1 * (y 0).val = (y 0).val; rw [(idx_facts t).2.2.1.1]; omega
  | ⟨1, _⟩ => show win0_2.index t 1 * 2048 + 1 * (y 1).val = (y 1).val; rw [(idx_facts t).2.2.1.2]; omega

/-- The second dense weight's block is the whole matrix. -/
theorem iblk3_eq (c : Dev nD) (t : Fin cfg0.N) : (iblk m c 3 t : Vec Ideal S2048x15 .f32) = V m c main_arg8 := by
  funext y
  unfold iblk
  rw [View.read_apply]
  show V m c main_arg8 _ = V m c main_arg8 y
  refine congrArg (V m c main_arg8) (funext fun a => Fin.ext ?_)
  match a with
  | ⟨0, _⟩ => show win0_3.index t 0 * 2048 + 1 * (y 0).val = (y 0).val; rw [(idx_facts t).2.2.2.1.1]; omega
  | ⟨1, _⟩ => show win0_3.index t 1 * 15 + 1 * (y 1).val = (y 1).val; rw [(idx_facts t).2.2.2.1.2]; omega

/-- The second bias row's block is the whole row. -/
theorem iblk4_eq (c : Dev nD) (t : Fin cfg0.N) : (iblk m c 4 t : Vec Ideal S1x15 .f32) = V m c main_v116 := by
  funext y
  unfold iblk
  rw [View.read_apply]
  show V m c main_v116 _ = V m c main_v116 y
  refine congrArg (V m c main_v116) (funext fun a => Fin.ext ?_)
  match a with
  | ⟨0, _⟩ => show win0_4.index t 0 * 1 + 1 * (y 0).val = (y 0).val; rw [(idx_facts t).2.2.2.2.1]; omega
  | ⟨1, _⟩ => show win0_4.index t 1 * 15 + 1 * (y 1).val = (y 1).val; rw [(idx_facts t).2.2.2.2.2]; omega

/-! ## The accumulator after the last step

From here on a window's block and the run's record of what a step leaves are used only through the lemmas above: they
are kept folded, so that comparing two of them never opens the host stage they are read from. -/

attribute [local irreducible] Cert.KernelIdeal.Gen.iblk Cert.KernelIdeal.Gen.outsAt0

/-- Step `n`'s product at an entry (zero past the grid). -/
def stepSum (c : Dev nD) (n : ℕ) (i : S8x2048.Idx) : EReal :=
  if h : n < cfg0.N then blockDot (iblk m c 0 ⟨n, h⟩) (iblk m c 1 ⟨n, h⟩) (i 0) (i 1) else 0

/-- After the last step the accumulator holds zero plus the 128 step sums. -/
theorem acc_fold (c : Dev nD) (i : S8x2048.Idx) :
    (outsAt0 m c tLast.val tLast.isLt).2 i = 0 + ∑ s ∈ Finset.range 128, stepSum m c s i := by
  rw [Value.soutsAt0_0_sweep m c tLast.val tLast.isLt]
  have key := Pipeline.accAt_add_apply (N := cfg0.N)
    (fun n h => Value.scAt0_0 m c n h (VS0_0.read (Elt Ideal) VS0_0.junk)) (Value.scAt0_0 m c)
    (fun _ => (0 : EReal)) (stepSum m c) 0 127
    (fun h i => by
      obtain ⟨p, q, rfl⟩ : ∃ (p : Fin 8) (q : Fin 2048), i = ix2 p q := ⟨i 0, i 1, eq_ix2 i⟩
      show Value.scAt0_0 m c 0 h _ (ix2 p q) = 0 + stepSum m c 0 (ix2 p q)
      rw [scAt_eq, if_pos (Nat.zero_mod 128), pay2_apply, pay1_apply]
      unfold stepSum
      rw [dif_pos h])
    (fun n h acc i hn hle => by
      obtain ⟨p, q, rfl⟩ : ∃ (p : Fin 8) (q : Fin 2048), i = ix2 p q := ⟨i 0, i 1, eq_ix2 i⟩
      have hne : ¬n % 128 = 0 := by omega
      rw [scAt_eq, if_neg hne, pay2_apply]
      unfold stepSum
      rw [dif_pos h])
    127 le_rfl (by rw [show cfg0.N = 128 from N_0]; omega) i
  simpa only [Nat.zero_add] using key

/-- … which is the sum over all 131072 contraction indices of features times weight, for any two arrays `A`, `B` of
    which the steps' blocks are the consecutive pieces. -/
theorem acc_apply (c : Dev nD) (A : FVec Ideal S8x131072 .f32) (B : FVec Ideal S131072x2048 .f32)
    (hA : ∀ (t : Fin cfg0.N) (p : Fin 8) (k : Fin 1024) (hk : t.val * 1024 + k.val < 131072),
      (iblk m c 0 t : Vec Ideal S8x1024 .f32) (ix2 p k) = A (ix2 p ⟨t.val * 1024 + k.val, hk⟩))
    (hB : ∀ (t : Fin cfg0.N) (k : Fin 1024) (q : Fin 2048) (hk : t.val * 1024 + k.val < 131072),
      (iblk m c 1 t : Vec Ideal S1024x2048 .f32) (ix2 k q) = B (ix2 ⟨t.val * 1024 + k.val, hk⟩ q))
    (p : Fin 8) (q : Fin 2048) :
    (outsAt0 m c tLast.val tLast.isLt).2 (ix2 p q) = fullDot A B p q := by
  have hN : cfg0.N = 128 := N_0
  rw [acc_fold, zero_add, Finset.sum_range]
  unfold fullDot
  refine (Finset.sum_congr rfl fun s _ => ?_).trans
    (Cert.Lib.ScatterSum.sum_blocks 128 1024 (fun k : Fin (128 * 1024) => termAt A B p q k)).symm
  have hs : s.val < cfg0.N := by rw [hN]; exact s.isLt
  unfold stepSum
  rw [dif_pos hs]
  unfold blockDot termAt
  refine Finset.sum_congr rfl fun k _ => ?_
  have hk : s.val * 1024 + k.val < 131072 := by have := s.isLt; have := k.isLt; omega
  exact congrArg₂ (· * ·) (hA ⟨s.val, hs⟩ p k hk) (hB ⟨s.val, hs⟩ k q hk)

/-! ## The result at an entry -/

/-- The head payload, applied to ANY accumulator that holds the whole first product and to any rows and weight that
    hold the biases and the second weight, is the dense head. -/
theorem head_of (acc : Vec Ideal S8x2048 .f32) (r1 : Vec Ideal S1x2048 .f32) (W2' : Vec Ideal S2048x15 .f32) (r2 : Vec Ideal S1x15 .f32)
    (A : FVec Ideal S8x131072 .f32) (B : FVec Ideal S131072x2048 .f32) (b1 : FVec Ideal ⟨1, ![2048]⟩ .f32)
    (W2 : FVec Ideal S2048x15 .f32) (b2 : FVec Ideal ⟨1, ![15]⟩ .f32)
    (hacc : ∀ (p : Fin 8) (n : Fin 2048), acc (ix2 p n) = fullDot A B p n)
    (h2 : ∀ n : Fin 2048, r1 (ix2 (0 : Fin 1) n) = b1 (ix1 n))
    (h3 : ∀ y : S2048x15.Idx, W2' y = W2 y)
    (h4 : ∀ j : Fin 15, r2 (ix2 (0 : Fin 1) j) = b2 (ix1 j))
    (p : Fin 8) (j : Fin 15) :
    k0_pay3 (F := Ideal) acc r1 W2' r2 (ix2 p j) = headAt A B b1 W2 b2 p j := by
  rw [pay3_apply]
  unfold headAt preAt
  refine congrArg₂ (· + ·) (Finset.sum_congr rfl fun n _ => ?_) (h4 j)
  rw [hacc p n, fullDot_eq, h2 n, h3 (ix2 n j)]

/-- The kernel's result at (p, j) is the dense head of any five arrays of which the windows' blocks are the pieces. -/
theorem resK_head (c : Dev nD) (A : FVec Ideal S8x131072 .f32) (B : FVec Ideal S131072x2048 .f32) (b1 : FVec Ideal ⟨1, ![2048]⟩ .f32)
    (W2 : FVec Ideal S2048x15 .f32) (b2 : FVec Ideal ⟨1, ![15]⟩ .f32)
    (hA : ∀ (t : Fin cfg0.N) (p : Fin 8) (k : Fin 1024) (hk : t.val * 1024 + k.val < 131072),
      (iblk m c 0 t : Vec Ideal S8x1024 .f32) (ix2 p k) = A (ix2 p ⟨t.val * 1024 + k.val, hk⟩))
    (hB : ∀ (t : Fin cfg0.N) (k : Fin 1024) (q : Fin 2048) (hk : t.val * 1024 + k.val < 131072),
      (iblk m c 1 t : Vec Ideal S1024x2048 .f32) (ix2 k q) = B (ix2 ⟨t.val * 1024 + k.val, hk⟩ q))
    (h2 : ∀ (t : Fin cfg0.N) (n : Fin 2048), (iblk m c 2 t : Vec Ideal S1x2048 .f32) (ix2 (0 : Fin 1) n) = b1 (ix1 n))
    (h3 : ∀ (t : Fin cfg0.N) (y : S2048x15.Idx), (iblk m c 3 t : Vec Ideal S2048x15 .f32) y = W2 y)
    (h4 : ∀ (t : Fin cfg0.N) (j : Fin 15), (iblk m c 4 t : Vec Ideal S1x15 .f32) (ix2 (0 : Fin 1) j) = b2 (ix1 j))
    (p : Fin 8) (j : Fin 15) :
    resK m c (ix2 p j) = headAt A B b1 W2 b2 p j := by
  unfold resK
  exact head_of (outsAt0 m c tLast.val tLast.isLt).2 (iblk m c 2 tLast) (iblk m c 3 tLast) (iblk m c 4 tLast) A B b1 W2 b2
    (acc_apply m c A B hA hB) (h2 tLast) (h3 tLast) (h4 tLast) p j

end Cert.KernelIdeal.KHead

end
-- ==== Proof.KHost.lean ====
/-
  What the kernel's program computes on the host before its one launch: the arrays the launch's windows read.
  The flattened features are the graph-convolution stage with the activation in the kernel program's spelling; the two
  bias vectors are re-read as one-row matrices; the two dense weights are passed as they are.
-/
import proofs.«154179_j72851235275292_1_alg».proof.Proof.Gen.KernelIdeal.Frame
import proofs.«154179_j72851235275292_1_alg».proof.Proof.HostSpec
import proofs.«154179_j72851235275292_1_alg».proof.Proof.LibConcat
import Idealize.ShloMosaic.Lib.StableHlo.Run

set_option maxRecDepth 16384

noncomputable section

namespace Cert.KernelIdeal.KHost

open Cert.KernelIdeal Cert.KernelIdeal.Gen Cert.KernelIdeal.Facts₀ Cert.HostSpec
open Idealize.ShloMosaic Idealize.ShloMosaic.StableHlo Idealize.ShloMosaic.TcCoe Idealize.SL.Sem

variable {F : FTy → Type} [FloatOps F]
variable (m : (ℓ : Loc nD τ sig) → Buf (Elt F) ℓ)

set_option maxHeartbeats 4000000 in
/-- The flattened features the launch reads. -/
theorem V_hflat (c : Dev nD) :
    (V m c main_v114 : FA F S8x131072) = hostG actK (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  dsimp only [Gen.V]
  simp only [hostOps0, hostOps0_1, hostOps0_2, hostOps0_3, hostOps0_4, hostOps0_5, hostOps0_6, hostOps0_7, hostOps0_8, List.flatten_cons, List.flatten_nil, List.append_nil, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Cert.LibConcat.concat2_fold]
  rfl

set_option maxHeartbeats 4000000 in
/-- The first dense bias as the launch reads it: the vector re-read as one row. -/
theorem V_bf1 (c : Dev nD) :
    (V m c main_v115 : FA F S1x2048) = fun i => shapeCast S1x2048 (m ((c : Thread nD τ).loc main_arg7)) Facts₀.shapeCasts_S2048_S1x2048 i := by
  dsimp only [Gen.V]
  simp only [hostOps0, hostOps0_1, hostOps0_2, hostOps0_3, hostOps0_4, hostOps0_5, hostOps0_6, hostOps0_7, hostOps0_8, List.flatten_cons, List.flatten_nil, List.append_nil, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Cert.LibConcat.concat2_fold]
  rfl

set_option maxHeartbeats 4000000 in
/-- The second dense bias as the launch reads it. -/
theorem V_bf2 (c : Dev nD) :
    (V m c main_v116 : FA F S1x15) = fun i => shapeCast S1x15 (m ((c : Thread nD τ).loc main_arg9)) Facts₀.shapeCasts_S15_S1x15 i := by
  dsimp only [Gen.V]
  simp only [hostOps0, hostOps0_1, hostOps0_2, hostOps0_3, hostOps0_4, hostOps0_5, hostOps0_6, hostOps0_7, hostOps0_8, List.flatten_cons, List.flatten_nil, List.append_nil, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Cert.LibConcat.concat2_fold]
  rfl

end Cert.KernelIdeal.KHost

end
-- ==== Proof.LibNormLaw.lean ====
/-
  The one law of real arithmetic that joins the two programs.

  The kernel normalises a node's degree d by the reciprocal square root of max(d, 1); the reference raises
  max(1, d) to the power -1/2. On the extended reals the clamped degree lies in [1, +inf]. At +inf both conventions
  give 0; at a real r >= 1 the power is r^(-1/2) = 1/sqrt(r), the reciprocal square root. Below 1 the two operations
  may differ (at 0 or at negative numbers), which is why the clamp is part of the statement.
-/
import Idealize.ShloMosaic.PureOps.Ideal

noncomputable section

namespace Cert.NormLaw

open Idealize.ShloMosaic

/-- The float word of 1.0 denotes the real number 1. -/
theorem ofBits_one : Ideal.ofBits .f32 0x3F800000#32 = 1 := by
  simp [Ideal.ofBits, Ideal.ieee, -EReal.coe_mul]; norm_num

/-- The float word of -0.5 denotes the real number -1/2. -/
theorem ofBits_neg_half : Ideal.ofBits .f32 0xBF000000#32 = ((-(1 / 2) : ℝ) : EReal) := by
  simp [Ideal.ofBits, Ideal.ieee, -EReal.coe_mul]; norm_num

/-- From 1 upwards, the power -1/2 is the reciprocal square root. -/
theorem pow_neg_half_eq_rsqrt (x : EReal) (hx : 1 ≤ x) :
    Ideal.pow x ((-(1 / 2) : ℝ) : EReal) = Ideal.rsqrt x := by
  induction x using EReal.rec with
  | bot => exact absurd (le_bot_iff.mp hx) (by exact_mod_cast EReal.coe_ne_bot (1 : ℝ))
  | top =>
    rw [Ideal.pow_top, Ideal.rsqrt_top]
    have h1 : ¬ (0 : EReal) < ((-(1 / 2) : ℝ) : EReal) := by
      rw [not_lt]; exact_mod_cast (by norm_num : (-(1 / 2) : ℝ) ≤ 0)
    have h2 : ((-(1 / 2) : ℝ) : EReal) ≠ 0 := by
      exact_mod_cast (by norm_num : (-(1 / 2) : ℝ) ≠ 0)
    rw [if_neg h1, if_neg h2]
  | coe r =>
    have hr : (1 : ℝ) ≤ r := by exact_mod_cast hx
    rw [Ideal.pow_coe_coe, Ideal.rsqrt_coe, if_neg (by linarith : ¬ r < 0), if_neg (by linarith : ¬ r = 0)]
    congr 1
    show Real.rpow r (-(1 / 2)) = (Real.sqrt r)⁻¹
    rw [Real.rpow_eq_pow, Real.rpow_neg (by linarith), Real.sqrt_eq_rpow]

/-- The reference's normalisation of a degree is the kernel's, with the float words as the programs spell them. -/
theorem pow_clamp_eq_rsqrt_clamp (d : EReal) :
    Ideal.pow (max (Ideal.ofBits .f32 0x3F800000#32) d) (Ideal.ofBits .f32 0xBF000000#32)
      = Ideal.rsqrt (max d (Ideal.ofBits .f32 0x3F800000#32)) := by
  rw [ofBits_one, ofBits_neg_half, max_comm]
  exact pow_neg_half_eq_rsqrt _ (le_max_right _ _)

end Cert.NormLaw

end
-- ==== Proof.SeluLaw.lean ====
/-
  The scaled exponential linear unit in its two spellings.

  One program writes `scale · (v > 0 ? v : alpha · (exp v − 1))`; the other writes
  `scale · (v > 0 ? v : alpha · expm1 (v > 0 ? 0 : v))` with `expm1 x = exp x − 1`. Where the comparison holds both
  select `v`; where it fails the inner selection is `v` again, and the float word of 1.0 is the number 1. So the
  two agree at every extended real, whatever the comparison bit is.
-/
import Idealize.ShloMosaic.PureOps.Ideal
import Idealize.ShloMosaic.Lib.ValueIdx
import proofs.«154179_j72851235275292_1_alg».proof.Proof.LibNormLaw

noncomputable section

namespace Cert.SeluLaw

open Idealize.ShloMosaic Idealize.ShloMosaic.ValueIdx

/-- The two spellings agree, for any comparison bit `b`, any factors `s`, `a`, any `z` in place of the zero. -/
theorem scalar (b : BitVec 1) (s a z v : EReal) :
    s * Scalar.select b v (a * (Ideal.exp v - Ideal.ofBits .f32 0x3F800000#32))
      = s * Scalar.select b v (a * (Ideal.exp (Scalar.select b z v) - 1)) := by
  by_cases h : b = 1#1
  · subst h; simp only [select_one]
  · have h0 := eq_zero_of_ne_one h; subst h0; simp only [select_zero, Cert.NormLaw.ofBits_one]

end Cert.SeluLaw

end
-- ==== Proof.LibBiasRow.lean ====
/-
  The bias of a layer, a length-N vector, as the 1×N row both programs add to every row of a product.  The kernel reshapes
  the vector to 1×N on the host and the body broadcasts that row over its block; the reference broadcasts the vector to
  1×N and then to M×N.  Either way entry (p, q) of what is added is entry q of the vector.
-/
import Idealize.ShloMosaic.PureOps.Ideal.Laws
import Idealize.ShloMosaic.Lib.ValueIdx
import Idealize.ShloMosaic.Lib.Pipeline.Value
import Idealize.ShloMosaic.Lib.KernelVsHost

noncomputable section

namespace Cert.Row

open Idealize.ShloMosaic Idealize.ShloMosaic.ValueIdx

variable {M N : ℕ}

/-- A length-N vector as a 1×N row. -/
def rowOf (b : FVec Ideal ⟨1, ![N]⟩ .f32) : FVec Ideal ⟨2, ![1, N]⟩ .f32 := fun j => b (ix1 (j 1))

/-- The reshape of the vector to 1×N is that row. -/
theorem shapeCast_row (b : FVec Ideal ⟨1, ![N]⟩ .f32) (h : (⟨1, ![N]⟩ : Shape).ShapeCasts ⟨2, ![1, N]⟩) :
    shapeCast ⟨2, ![1, N]⟩ b h = rowOf b := by
  funext j
  refine (shapeCast_addUnit_apply ![N] b h j).trans ?_
  unfold rowOf
  exact congrArg b (funext fun a => by match a with | ⟨0, _⟩ => rfl)

/-- The two broadcasts of the vector, to 1×N and then to M×N, read at (p, q): the row at (0, q). -/
theorem bcast_row_apply (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = rowOf b (ix2 0 q) := by
  rw [broadcastInDim_oneRow_apply]
  refine broadcastInDim_apply ![1] h1 b (ix2 (0 : Fin 1) q) (ix1 q) (fun a => ?_)
  match a with
  | ⟨0, _⟩ =>
    show q.val = if N = 1 then 0 else q.val
    split_ifs with hN
    · have := q.isLt; omega
    · rfl

end Cert.Row

end
-- ==== Proof.RefHead.lean ====
/-
  The reference's result read at an entry: it is the dense head applied to the graph-convolution stage, and the
  reference's spelling of the activation is the kernel program's.
-/
import proofs.«154179_j72851235275292_1_alg».proof.Proof.RefSpec
import proofs.«154179_j72851235275292_1_alg».proof.Proof.HeadSpec
import proofs.«154179_j72851235275292_1_alg».proof.Proof.SeluLaw
import proofs.«154179_j72851235275292_1_alg».proof.Proof.LibPlainDot
import proofs.«154179_j72851235275292_1_alg».proof.Proof.LibBiasRow

noncomputable section

namespace Cert.RefHead

open Idealize.ShloMosaic Idealize.ShloMosaic.ValueIdx
open Cert.HostSpec (FA IA hostG actR actK)
open Cert.RefSpec Cert.HeadSpec
open scoped BigOperators

/-- On the node features the two spellings of the activation are one function. -/
theorem actR_eq_actK : (actR (F := Ideal)) = actK := by
  funext v j
  exact (Cert.SeluLaw.scalar _ _ _ _ _).symm

/-- On the hidden layer the reference's activation is `selu` entry by entry. -/
theorem actR8_apply (v : FA Ideal Cert.ReferenceIdeal.S8x2048) (i : Cert.ReferenceIdeal.S8x2048.Idx) : actR8 v i = selu (v i) :=
  (Cert.SeluLaw.scalar _ _ _ _ _).symm

/-- The reference's head at an entry. -/
theorem headR_apply (hf : FA Ideal Cert.ReferenceIdeal.S8x131072) (Wf1 : FA Ideal Cert.ReferenceIdeal.S131072x2048)
    (bf1 : FA Ideal Cert.ReferenceIdeal.S2048) (Wf2 : FA Ideal Cert.ReferenceIdeal.S2048x15) (bf2 : FA Ideal Cert.ReferenceIdeal.S15)
    (p : Fin 8) (j : Fin 15) :
    headR hf Wf1 bf1 Wf2 bf2 (ix2 p j) = headAt hf Wf1 bf1 Wf2 bf2 p j := by
  unfold headR headAt
  show FloatOps.dotGeneral _ none _ _ _ (ix2 p j) + _ = _
  rw [Cert.LibPlainDot.dotGeneral_apply Cert.ReferenceIdeal.dot_S8x2048_S2048x15_S8x15_1_0_0_1_n_n rfl, Cert.Row.bcast_row_apply]
  refine congrArg₂ (· + ·) (Finset.sum_congr rfl fun n _ => ?_) rfl
  rw [actR8_apply]
  refine congrArg (fun t => selu t * Wf2 (ix2 n j)) ?_
  unfold preAt
  show FloatOps.dotGeneral _ none _ _ _ (ix2 p n) + _ = _
  rw [Cert.LibPlainDot.dotGeneral_apply Cert.ReferenceIdeal.dot_S8x131072_S131072x2048_S8x2048_1_0_0_1_n_n rfl, Cert.Row.bcast_row_apply]
  rfl

end Cert.RefHead

end
-- ==== Proof.Bridge.lean ====
/-
  The two results are one function of the argument arrays.

  Entry by entry both are the dense head applied to the graph-convolution stage: on the kernel's side the head is read
  off the accumulated blocks, on the reference's side off its two whole products; the graph-convolution stages differ
  only in the spelling of the activation, which is one function on the extended reals.
-/
import proofs.«154179_j72851235275292_1_alg».proof.Proof.KernelHead
import proofs.«154179_j72851235275292_1_alg».proof.Proof.KHost
import proofs.«154179_j72851235275292_1_alg».proof.Proof.RefHead
import proofs.«154179_j72851235275292_1_alg».proof.Proof.LibBiasRow

noncomputable section

namespace Cert.Bridge

open Idealize.ShloMosaic Idealize.ShloMosaic.TcCoe Idealize.SL.Sem Idealize.ShloMosaic.ValueIdx
open Cert.KernelIdeal Cert.KernelIdeal.Gen Cert.HeadSpec Cert.KernelIdeal.KHead
open Cert.HostSpec (hostG actK actR)
open scoped BigOperators

variable (m : (ℓ : Loc nD τ sig) → Buf (Elt Ideal) ℓ)

/-! ## The windows' blocks as pieces of the argument arrays -/

/-- A features block is a piece of the graph-convolution stage's result. -/
theorem blk0 (c : Dev nD) (t : Fin cfg0.N) (p : Fin 8) (k : Fin 1024) (hk : t.val * 1024 + k.val < 131072) :
    (iblk m c 0 t : Vec Ideal S8x1024 .f32) (ix2 p k) = (hostG actK (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5))) (ix2 p ⟨t.val * 1024 + k.val, hk⟩) :=
  (iblk0_apply m c t p k hk).trans (congrFun (Cert.KernelIdeal.KHost.V_hflat m c) _)

/-- A weight block is a piece of the first dense weight. -/
theorem blk1 (c : Dev nD) (t : Fin cfg0.N) (k : Fin 1024) (q : Fin 2048) (hk : t.val * 1024 + k.val < 131072) :
    (iblk m c 1 t : Vec Ideal S1024x2048 .f32) (ix2 k q) = ((m ((c : Thread Cert.KernelIdeal.nD Cert.KernelIdeal.τ).loc Cert.KernelIdeal.main_arg6)) : Vec Ideal S131072x2048 .f32) (ix2 ⟨t.val * 1024 + k.val, hk⟩ q) :=
  (iblk1_apply m c t k q hk).trans (congrFun (V_main_arg6 m c) _)

/-- The first bias row at (0, n) is the bias vector at n. -/
theorem blk2 (c : Dev nD) (t : Fin cfg0.N) (n : Fin 2048) :
    (iblk m c 2 t : Vec Ideal S1x2048 .f32) (ix2 (0 : Fin 1) n) = ((m ((c : Thread Cert.KernelIdeal.nD Cert.KernelIdeal.τ).loc Cert.KernelIdeal.main_arg7)) : Vec Ideal S2048 .f32) (ix1 n) :=
  (congrFun (iblk2_eq m c t) _).trans ((congrFun (Cert.KernelIdeal.KHost.V_bf1 m c) _).trans
    (congrFun (Cert.Row.shapeCast_row (N := 2048) (m ((c : Thread Cert.KernelIdeal.nD Cert.KernelIdeal.τ).loc Cert.KernelIdeal.main_arg7)) Facts₀.shapeCasts_S2048_S1x2048) (ix2 (0 : Fin 1) n)))

/-- The second dense weight's block is the weight. -/
theorem blk3 (c : Dev nD) (t : Fin cfg0.N) (y : S2048x15.Idx) :
    (iblk m c 3 t : Vec Ideal S2048x15 .f32) y = ((m ((c : Thread Cert.KernelIdeal.nD Cert.KernelIdeal.τ).loc Cert.KernelIdeal.main_arg8)) : Vec Ideal S2048x15 .f32) y :=
  (congrFun (iblk3_eq m c t) y).trans (congrFun (V_main_arg8 m c) y)

/-- The second bias row at (0, j) is the bias vector at j. -/
theorem blk4 (c : Dev nD) (t : Fin cfg0.N) (j : Fin 15) :
    (iblk m c 4 t : Vec Ideal S1x15 .f32) (ix2 (0 : Fin 1) j) = ((m ((c : Thread Cert.KernelIdeal.nD Cert.KernelIdeal.τ).loc Cert.KernelIdeal.main_arg9)) : Vec Ideal S15 .f32) (ix1 j) :=
  (congrFun (iblk4_eq m c t) _).trans ((congrFun (Cert.KernelIdeal.KHost.V_bf2 m c) _).trans
    (congrFun (Cert.Row.shapeCast_row (N := 15) (m ((c : Thread Cert.KernelIdeal.nD Cert.KernelIdeal.τ).loc Cert.KernelIdeal.main_arg9)) Facts₀.shapeCasts_S15_S1x15) (ix2 (0 : Fin 1) j)))

/-! ## The results -/

/-- The kernel's result array is the reference's function of the arguments. -/
theorem result_eq (c : Dev nD) :
    Cert.KernelIdeal.KValue.resK m c = Cert.RefSpec.refOut (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) := by
  funext i
  obtain ⟨p, j, rfl⟩ : ∃ (p : Fin 8) (j : Fin 15), i = ix2 p j := ⟨i 0, i 1, eq_ix2 i⟩
  refine (resK_head m c (hostG actK (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5))) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9))
    (blk0 m c) (blk1 m c) (blk2 m c) (blk3 m c) (blk4 m c) p j).trans ?_
  refine Eq.trans ?_ (Cert.RefHead.headR_apply (hostG actR (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5))) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) p j).symm
  rw [Cert.RefHead.actR_eq_actK]

end Cert.Bridge

end
-- ==== Proof.lean ====
/-
  The certificate of a two-layer graph convolution with a dense head: the kernel program (its host stage, then one
  launch that accumulates the first dense product over 128 blocks of the contraction axis and finishes the head in
  the last step) against the plain reference.

  Frames: the kernel program's two frames are the generated ones; the reference's is its run with the result dropped.
  The idealization rewrote nothing. Values: both programs end with the result array holding, entry by entry, the
  dense head of the graph-convolution stage — the kernel's accumulated blocks regroup into the reference's whole
  sums, and the two spellings of the activation are one function on the extended reals.
-/
import proofs.«154179_j72851235275292_1_alg».proof.Defs
import proofs.«154179_j72851235275292_1_alg».proof.Proof.Gen.Kernel
import proofs.«154179_j72851235275292_1_alg».proof.Proof.Gen.Kernel.Skeleton
import proofs.«154179_j72851235275292_1_alg».proof.Proof.Gen.Kernel.Launch
import proofs.«154179_j72851235275292_1_alg».proof.Proof.Gen.Kernel.Points
import proofs.«154179_j72851235275292_1_alg».proof.Proof.Gen.Kernel.Frame
import proofs.«154179_j72851235275292_1_alg».proof.Proof.Gen.KernelIdeal
import proofs.«154179_j72851235275292_1_alg».proof.Proof.Gen.KernelIdeal.Skeleton
import proofs.«154179_j72851235275292_1_alg».proof.Proof.Gen.KernelIdeal.Launch
import proofs.«154179_j72851235275292_1_alg».proof.Proof.Gen.KernelIdeal.Points
import proofs.«154179_j72851235275292_1_alg».proof.Proof.Gen.KernelIdeal.Frame
import proofs.«154179_j72851235275292_1_alg».proof.Proof.Gen.KernelIdeal.Value
import proofs.«154179_j72851235275292_1_alg».proof.Proof.Gen.ReferenceIdeal
import proofs.«154179_j72851235275292_1_alg».proof.Proof.Gen.Pre_finite_inputs
import proofs.«154179_j72851235275292_1_alg».proof.Proof.KernelValue
import proofs.«154179_j72851235275292_1_alg».proof.Proof.RefValue
import proofs.«154179_j72851235275292_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run (F := Ideal) m ρ)

/-- Both runs end with the result array at the same function of arguments that agree. -/
theorem algebraic : Cert.algebraic_KernelIdeal_ReferenceIdeal := by
  intro m ρ m' ρ' _ hagree
  refine ⟨fun c => Cert.KernelIdeal.KValue.resK m c, Cert.KernelIdeal.KValue.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  exact (Cert.Bridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
